-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S256x1024x16 : Shape := ⟨3, ![256, 1024, 16]⟩
abbrev S512x16 : Shape := ⟨2, ![512, 16]⟩
abbrev S4608x4096 : Shape := ⟨2, ![4608, 4096]⟩
abbrev S4096 : Shape := ⟨1, ![4096]⟩
abbrev S4096x1024 : Shape := ⟨2, ![4096, 1024]⟩
abbrev S1024 : Shape := ⟨1, ![1024]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S256x1024x16 : S_.BroadcastsInDim S256x1024x16 (![] : Fin 0 → Fin S256x1024x16.rank)
  reducesTo_S256x1024x16_S_d0_1_2 : S256x1024x16.ReducesTo [0, 1, 2] S_
  bcast_S_S512x16 : S_.BroadcastsInDim S512x16 (![] : Fin 0 → Fin S512x16.rank)
  reducesTo_S512x16_S_d0_1 : S512x16.ReducesTo [0, 1] S_
  bcast_S_S4608x4096 : S_.BroadcastsInDim S4608x4096 (![] : Fin 0 → Fin S4608x4096.rank)
  reducesTo_S4608x4096_S_d0_1 : S4608x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S4608x4096 .f32) (main_arg5 : FVec F S4096 .f32) (main_arg6 : FVec F S4096x1024 .f32) (main_arg7 : FVec F S1024 .f32) (main_v13 : IVec S_ 1) (main_v16 : IVec S512x16 1) : IVec S_ 1 :=
  let main_c_5 : IVec S_ 1 := constantI S_ 1 1#1
  let main_v17 : IVec S_ 1 := (fun x v => Host.reduce IntOp.andi x v reducesTo_S512x16_S_d0_1 h_S_) main_v16 main_c_5
  let main_v18 : IVec S_ 1 := andi main_v13 main_v17
  let main_v19 : FVec F S4608x4096 .f32 := Host.absf main_arg4
  let main_cst_6 : FVec F S_ .f32 := constant S_ .f32 0x7F800000#32
  let main_v20 : FVec F S4608x4096 .f32 := broadcastInDim S4608x4096 ![] bcast_S_S4608x4096 main_cst_6
  let main_v21 : IVec S4608x4096 1 := cmpf .olt main_v19 main_v20
  let main_c_7 : IVec S_ 1 := constantI S_ 1 1#1
  let main_v22 : IVec S_ 1 := (fun x v => Host.reduce IntOp.andi x v reducesTo_S4608x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg7 main_v33

def fn {F : FTy → Type} [FloatOps F] (main_arg0 : FVec F S256x1024 .f32) (main_arg1 : FVec F S256x1024x16 .f32) (main_arg2 : FVec F S256x1024x16 .f32) (main_arg3 : FVec F S512x16 .f32) (main_arg4 : FVec F S4608x4096 .f32) (main_arg5 : FVec F S4096 .f32) (main_arg6 : FVec F S4096x1024 .f32) (main_arg7 : FVec F S1024 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S256x1024x16 .f32 := Host.absf main_arg1
  let main_cst_0 : FVec F S_ .f32 := constant S_ .f32 0x7F800000#32
  let main_v5 : FVec F S256x1024x16 .f32 := broadcastInDim S256x1024x16 ![] bcast_S_S256x1024x16 main_cst_0
  let main_v6 : IVec S256x1024x16 1 := cmpf .olt main_v4 main_v5
  let main_c_1 : IVec S_ 1 := constantI S_ 1 1#1
  let main_v7 : IVec S_ 1 := (fun x v => Host.reduce IntOp.andi x v reducesTo_S256x1024x16_S_d0_1_2 h_S_) main_v6 main_c_1
  let main_v8 : IVec S_ 1 := andi main_v3 main_v7
  let main_v9 : FVec F S256x1024x16 .f32 := Host.absf main_arg2
  let main_cst_2 : FVec F S_ .f32 := constant S_ .f32 0x7F800000#32
  let main_v10 : FVec F S256x1024x16 .f32 := broadcastInDim S256x1024x16 ![] bcast_S_S256x1024x16 main_cst_2
  let main_v11 : IVec S256x1024x16 1 := cmpf .olt main_v9 main_v10
  let main_c_3 : IVec S_ 1 := constantI S_ 1 1#1
  let main_v12 : IVec S_ 1 := (fun x v => Host.reduce IntOp.andi x v reducesTo_S256x1024x16_S_d0_1_2 h_S_) main_v11 main_c_3
  let main_v13 : IVec S_ 1 := andi main_v8 main_v12
  let main_v14 : FVec F S512x16 .f32 := Host.absf main_arg3
  let main_cst_4 : FVec F S_ .f32 := constant S_ .f32 0x7F800000#32
  let main_v15 : FVec F S512x16 .f32 := broadcastInDim S512x16 ![] bcast_S_S512x16 main_cst_4
  let main_v16 : IVec S512x16 1 := cmpf .olt main_v14 main_v15
  fn_part1 (F := F) main_arg4 main_arg5 main_arg6 main_arg7 main_v13 main_v16
-- ==== Kernel.lean ====
abbrev S256x1024 : Shape := ⟨2, ![256, 1024]⟩
abbrev S256x1024x16 : Shape := ⟨3, ![256, 1024, 16]⟩
abbrev S512x16 : Shape := ⟨2, ![512, 16]⟩
abbrev S4608x4096 : Shape := ⟨2, ![4608, 4096]⟩
abbrev S4096 : Shape := ⟨1, ![4096]⟩
abbrev S4096x1024 : Shape := ⟨2, ![4096, 1024]⟩
abbrev S1024 : Shape := ⟨1, ![1024]⟩
abbrev S_ : Shape := ⟨0, ![]⟩
abbrev S256x16x1024 : Shape := ⟨3, ![256, 16, 1024]⟩
abbrev S1x4096 : Shape := ⟨2, ![1, 4096]⟩
abbrev S1x1024 : Shape := ⟨2, ![1, 1024]⟩
abbrev S16x512 : Shape := ⟨2, ![16, 512]⟩
abbrev S512x4096 : Shape := ⟨2, ![512, 4096]⟩
abbrev S16x4096 : Shape := ⟨2, ![16, 4096]⟩
abbrev S32x1024 : Shape := ⟨2, ![32, 1024]⟩
abbrev S512x1024 : Shape := ⟨2, ![512, 1024]⟩
abbrev S4608x512 : Shape := ⟨2, ![4608, 512]⟩
abbrev S1x512 : Shape := ⟨2, ![1, 512]⟩
abbrev S1024x512 : Shape := ⟨2, ![1024, 512]⟩
abbrev S32x512 : Shape := ⟨2, ![32, 512]⟩
abbrev S512x512 : Shape := ⟨2, ![512, 512]⟩
abbrev S32x16x512 : Shape := ⟨3, ![32, 16, 512]⟩
abbrev S32x1x512 : Shape := ⟨3, ![32, 1, 512]⟩
abbrev S1x16x512 : Shape := ⟨3, ![1, 16, 512]⟩
abbrev S1x1x512 : Shape := ⟨3, ![1, 1, 512]⟩

abbrev nBuf : Space → Nat
  | .hbm => 38
  | .vmem => 20
  | .smem => 0
  | _ => 0

abbrev bufTy : (tb : Table) → Fin (tcTables nBuf tb) → BufTy
  | .hbm, ⟨0, _⟩ => ⟨S256x1024, .f32⟩
  | .hbm, ⟨1, _⟩ => ⟨S256x1024x16, .f32⟩
  | .hbm, ⟨2, _⟩ => ⟨S256x1024x16, .f32⟩
  | .hbm, ⟨3, _⟩ => ⟨S512x16, .f32⟩
  | .hbm, ⟨4, _⟩ => ⟨S4608x4096, .f32⟩
  | .hbm, ⟨5, _⟩ => ⟨S4096, .f32⟩
  | .hbm, ⟨6, _⟩ => ⟨S4096x1024, .f32⟩
  | .hbm, ⟨7, _⟩ => ⟨S1024, .f32⟩
  | .hbm, ⟨8, _⟩ => ⟨S256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S256x1024, .bf16⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .bf16⟩
  | .hbm, ⟨18, _⟩ => ⟨S256x1024x16, .bf16⟩
  | .hbm, ⟨19, _⟩ => ⟨S256x16x1024, .bf16⟩
  | .hbm, ⟨20, _⟩ => ⟨S4096x1024, .bf16⟩
  | .hbm, ⟨21, _⟩ => ⟨S256x1024x16, .bf16⟩
  | .hbm, ⟨22, _⟩ => ⟨S256x16x1024, .bf16⟩
  | .hbm, ⟨23, _⟩ => ⟨S4096x1024, .bf16⟩
  | .hbm, ⟨24, _⟩ => ⟨S4608x4096, .bf16⟩
  | .hbm, ⟨25, _⟩ => ⟨S4096x1024, .bf16⟩
  | .hbm, ⟨26, _⟩ => ⟨S1x4096, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1024, .f32⟩
  | .hbm, ⟨31, _⟩ => ⟨S512x16, .bf16⟩
  | .hbm, ⟨32, _⟩ => ⟨S16x512, .bf16⟩
  | .hbm, ⟨33, _⟩ => ⟨S512x4096, .bf16⟩
  | .hbm, ⟨34, _⟩ => ⟨S16x4096, .f32⟩
  | .hbm, ⟨35, _⟩ => ⟨S16x4096, .bf16⟩
  | .hbm, ⟨36, _⟩ => ⟨S256x1024, .f32⟩
  | .hbm, ⟨37, _⟩ => ⟨S256x1024, .f32⟩
  | .local _ .vmem, ⟨0, _⟩ => ⟨S32x1024, .bf16⟩
  | .local _ .vmem, ⟨1, _⟩ => ⟨S32x1024, .bf16⟩
  | .local _ .vmem, ⟨2, _⟩ => ⟨S32x1024, .bf16⟩
  | .local _ .vmem, ⟨3, _⟩ => ⟨S32x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S4608x512, .bf16⟩
  | .local _ .vmem, ⟨9, _⟩ => ⟨S4608x512, .bf16⟩
  | .local _ .vmem, ⟨10, _⟩ => ⟨S512x1024, .bf16⟩
  | .local _ .vmem, ⟨11, _⟩ => ⟨S512x1024, .bf16⟩
  | .local _ .vmem, ⟨12, _⟩ => ⟨S1x512, .f32⟩
  | .local _ .vmem, ⟨13, _⟩ => ⟨S1x512, .f32⟩
  | .local _ .vmem, ⟨14, _⟩ => ⟨S16x512, .bf16⟩
  | .local _ .vmem, ⟨15, _⟩ => ⟨S16x512, .bf16⟩
  | .local _ .vmem, ⟨16, _⟩ => ⟨S1x1024, .f32⟩
  | .local _ .vmem, ⟨17, _⟩ => ⟨S32x1024, .f32⟩
  | .local _ .vmem, ⟨18, _⟩ => ⟨S32x1024, .f32⟩
  | .local _ .vmem, ⟨19, _⟩ => ⟨S32x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v55 : BitVec 1 := Scalar.cmpi .eq arg1 c7_i32
  let v56 : BitVec 32 := Scalar.extui v55
  let c0_i32_29 : BitVec 32 := 0#32
  let v57 : BitVec 1 := Scalar.cmpi .ne v56 c0_i32_29
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4608x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  bcast_S_S256x1024 : S_.BroadcastsInDim S256x1024 (![] : Fin 0 → Fin S256x1024.rank)
  bitsLt_bf16_f32 : FTy.bits .bf16 < FTy.bits .f32
  transposes_S256x1024x16_S256x16x1024_0_2_1 : S256x1024x16.Transposes [0, 2, 1] S256x16x1024
  shapeCasts_S256x16x1024_S4096x1024 : S256x16x1024.ShapeCasts S4096x1024
  shapeCasts_S4096_S1x4096 : S4096.ShapeCasts S1x4096
  bcast_S_S1024 : S_.BroadcastsInDim S1024 (![] : Fin 0 → Fin S1024.rank)
  shapeCasts_S1024_S1x1024 : S1024.ShapeCasts S1x1024
  transposes_S512x16_S16x512_1_0 : S512x16.Transposes [1, 0] S16x512
  slices_S4608x4096_S512x4096_4096_0 : S4608x4096.Slices ![4096, 0] S512x4096
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S4608x512_S1024x512_0_0 : ∀ a, (![0, 0] : Fin 2 → Nat) a + S1024x512.size a ≤ S4608x512.size a
  h_S1024x512 : 0 < S1024x512.numel
  shapeCasts_S1024x512_S1024x512 : S1024x512.ShapeCasts S1024x512
  inb_S4608x512_S1024x512_1024_0 : ∀ a, (![1024, 0] : Fin 2 → Nat) a + S1024x512.size a ≤ S4608x512.size a
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S4608x512_S1024x512_2048_0 : ∀ a, (![2048, 0] : Fin 2 → Nat) a + S1024x512.size a ≤ S4608x512.size a
  inb_S4608x512_S1024x512_3072_0 : ∀ a, (![3072, 0] : Fin 2 → Nat) a + S1024x512.size a ≤ S4608x512.size a
  shapeCasts_S512x512_S32x16x512 : S512x512.ShapeCasts S32x16x512
  shapeCasts_S32x512_S32x1x512 : S32x512.ShapeCasts S32x1x512
  shapeCasts_S32x1x512_S32x1x512 : S32x1x512.ShapeCasts S32x1x512
  broadcasts_S32x1x512_S32x16x512 : S32x1x512.Broadcasts S32x16x512
  inb_S16x512_S16x512_0_0 : ∀ a, (![0, 0] : Fin 2 → Nat) a + S16x512.size a ≤ S16x512.size a
  h_S16x512 : 0 < S16x512.numel
  shapeCasts_S16x512_S16x512 : S16x512.ShapeCasts S16x512
  shapeCasts_S16x512_S1x16x512 : S16x512.ShapeCasts S1x16x512
  shapeCasts_S1x16x512_S1x16x512 : S1x16x512.ShapeCasts S1x16x512
  broadcasts_S1x16x512_S32x16x512 : S1x16x512.Broadcasts S32x16x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S1x1x512 : S1x512.ShapeCasts S1x1x512
  shapeCasts_S1x1x512_S1x1x512 : S1x1x512.ShapeCasts S1x1x512
  broadcasts_S1x1x512_S32x16x512 : S1x1x512.Broadcasts S32x16x512
  reduces_S32x16x512_S32x512 : S32x16x512.Reduces [1] S32x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S32x1024 : S1x1024.Broadcasts S32x1024
  dot_S16x512_S512x4096_S16x4096_1_0_0_1_n_n_wf : DotDims.WF S16x512 S512x4096 S16x4096 [1] [0] [0] [1] [] []
  dot_S32x1024_S1024x512_S32x512_1_0_0_1_n_n_wf : DotDims.WF S32x1024 S1024x512 S32x512 [1] [0] [0] [1] [] []
  dot_S512x1024_S1024x512_S512x512_1_0_0_1_n_n_wf : DotDims.WF S512x1024 S1024x512 S512x512 [1] [0] [0] [1] [] []
  dot_S32x512_S512x1024_S32x1024_1_0_0_1_n_n_wf : DotDims.WF S32x512 S512x1024 S32x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S256x1024.size a
  hwx0_0 : ∀ i : grid0.Coords, EltTy.bits .bf16 = 32 ∨ (Rect.block (s := S256x1024) S32x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1024.size a ≤ S256x1024.size a
  hwx0_1 : ∀ i : grid0.Coords, EltTy.bits .bf16 = 32 ∨ (Rect.block (s := S256x1024) S32x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .bf16 = 32 ∨ (Rect.block (s := S4096x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4608x512.size a ≤ S4608x4096.size a
  hwx0_4 : ∀ i : grid0.Coords, EltTy.bits .bf16 = 32 ∨ (Rect.block (s := S4608x4096) S4608x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .bf16 = 32 ∨ (Rect.block (s := S4096x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x4096.size a
  hwx0_6 : ∀ i : grid0.Coords, EltTy.bits .f32 = 32 ∨ (Rect.block (s := S1x4096) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x512.size a ≤ S16x4096.size a
  hwx0_7 : ∀ i : grid0.Coords, EltTy.bits .bf16 = 32 ∨ (Rect.block (s := S16x4096) S16x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x1024.size a ≤ S256x1024.size a
  hwx0_9 : ∀ i : grid0.Coords, EltTy.bits .f32 = 32 ∨ (Rect.block (s := S256x1024) S32x1024.size (cc0_transform_9 i) (hinb0_9 i)).WholeWords (EltTy.packing .f32)

variable [Facts₀]

def dot_S16x512_S512x4096_S16x4096_1_0_0_1_n_n : DotDims S16x512 S512x4096 S16x4096 where
  lhsContracting := [1]
  rhsContracting := [0]
  lhsNonContracting := [0]
  rhsNonContracting := [1]
  lhsBatch := []
  rhsBatch := []
  wf := dot_S16x512_S512x4096_S16x4096_1_0_0_1_n_n_wf
def dot_S32x1024_S1024x512_S32x512_1_0_0_1_n_n : DotDims S32x1024 S1024x512 S32x512 where
  lhsContracting := [1]
  rhsContracting := [0]
  lhsNonContracting := [0]
  rhsNonContracting := [1]
  lhsBatch := []
  rhsBatch := []
  wf := dot_S32x1024_S1024x512_S32x512_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S32x512_S512x1024_S32x1024_1_0_0_1_n_n : DotDims S32x512 S512x1024 S32x1024 where
  lhsContracting := [1]
  rhsContracting := [0]
  lhsNonContracting := [0]
  rhsNonContracting := [1]
  lhsBatch := []
  rhsBatch := []
  wf := dot_S32x512_S512x1024_S32x1024_1_0_0_1_n_n_wf

abbrev win0_0 : Pipeline.Window sig grid0 :=
  Pipeline.Window.ofSpec (Memref.whole main_v3) S32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S32x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S4608x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15) S512x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v24) S16x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S32x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S256x1024 : Shape := ⟨2, ![256, 1024]⟩
abbrev S256x1024x16 : Shape := ⟨3, ![256, 1024, 16]⟩
abbrev S512x16 : Shape := ⟨2, ![512, 16]⟩
abbrev S4608x4096 : Shape := ⟨2, ![4608, 4096]⟩
abbrev S4096 : Shape := ⟨1, ![4096]⟩
abbrev S4096x1024 : Shape := ⟨2, ![4096, 1024]⟩
abbrev S1024 : Shape := ⟨1, ![1024]⟩
abbrev S_ : Shape := ⟨0, ![]⟩
abbrev S256x1x1024 : Shape := ⟨3, ![256, 1, 1024]⟩
abbrev S256x16x1024 : Shape := ⟨3, ![256, 16, 1024]⟩
abbrev S16x512 : Shape := ⟨2, ![16, 512]⟩
abbrev S1x16x512 : Shape := ⟨3, ![1, 16, 512]⟩
abbrev S256x16x512 : Shape := ⟨3, ![256, 16, 512]⟩
abbrev S256x16x4608 : Shape := ⟨3, ![256, 16, 4608]⟩
abbrev S256x16x4096 : Shape := ⟨3, ![256, 16, 4096]⟩
abbrev S1x1x4096 : Shape := ⟨3, ![1, 1, 4096]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024x16, .f32⟩
  | .hbm, ⟨2, _⟩ => ⟨S256x1024x16, .f32⟩
  | .hbm, ⟨3, _⟩ => ⟨S512x16, .f32⟩
  | .hbm, ⟨4, _⟩ => ⟨S4608x4096, .f32⟩
  | .hbm, ⟨5, _⟩ => ⟨S4096, .f32⟩
  | .hbm, ⟨6, _⟩ => ⟨S4096x1024, .f32⟩
  | .hbm, ⟨7, _⟩ => ⟨S1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1x1024, .f32⟩
  | .hbm, ⟨19, _⟩ => ⟨S256x16x1024, .f32⟩
  | .hbm, ⟨20, _⟩ => ⟨S256x1x1024, .f32⟩
  | .hbm, ⟨21, _⟩ => ⟨S256x16x1024, .f32⟩
  | .hbm, ⟨22, _⟩ => ⟨S256x16x1024, .f32⟩
  | .hbm, ⟨23, _⟩ => ⟨S256x16x1024, .f32⟩
  | .hbm, ⟨24, _⟩ => ⟨S16x512, .f32⟩
  | .hbm, ⟨25, _⟩ => ⟨S1x16x512, .f32⟩
  | .hbm, ⟨26, _⟩ => ⟨S256x16x512, .f32⟩
  | .hbm, ⟨27, _⟩ => ⟨S256x16x4608, .f32⟩
  | .hbm, ⟨28, _⟩ => ⟨S256x16x4096, .f32⟩
  | .hbm, ⟨29, _⟩ => ⟨S1x1x4096, .f32⟩
  | .hbm, ⟨30, _⟩ => ⟨S256x16x4096, .f32⟩
  | .hbm, ⟨31, _⟩ => ⟨S256x16x4096, .f32⟩
  | .hbm, ⟨32, _⟩ => ⟨S_, .f32⟩
  | .hbm, ⟨33, _⟩ => ⟨S256x16x4096, .f32⟩
  | .hbm, ⟨34, _⟩ => ⟨S256x16x4096, .f32⟩
  | .hbm, ⟨35, _⟩ => ⟨S256x16x1024, .f32⟩
  | .hbm, ⟨36, _⟩ => ⟨S1x1x1024, .f32⟩
  | .hbm, ⟨37, _⟩ => ⟨S256x16x1024, .f32⟩
  | .hbm, ⟨38, _⟩ => ⟨S256x16x1024, .f32⟩
  | .hbm, ⟨39, _⟩ => ⟨S_, .f32⟩
  | .hbm, ⟨40, _⟩ => ⟨S256x1024, .f32⟩
  | .hbm, ⟨41, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_cst : Ref sig .tc := ⟨.hbm, 32, rfl⟩
abbrev main_call0_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S_S256x1024 : S_.BroadcastsInDim S256x1024 (![] : Fin 0 → Fin S256x1024.rank)
  bcast_S256x1024_S256x1x1024_0_2 : S256x1024.BroadcastsInDim S256x1x1024 (![0, 2] : Fin 2 → Fin S256x1x1024.rank)
  bcast_S256x1x1024_S256x16x1024_0_1_2 : S256x1x1024.BroadcastsInDim S256x16x1024 (![0, 1, 2] : Fin 3 → Fin S256x16x1024.rank)
  transposes_S256x1024x16_S256x16x1024_0_2_1 : S256x1024x16.Transposes [0, 2, 1] S256x16x1024
  transposes_S512x16_S16x512_1_0 : S512x16.Transposes [1, 0] S16x512
  bcast_S16x512_S1x16x512_1_2 : S16x512.BroadcastsInDim S1x16x512 (![1, 2] : Fin 2 → Fin S1x16x512.rank)
  bcast_S1x16x512_S256x16x512_0_1_2 : S1x16x512.BroadcastsInDim S256x16x512 (![0, 1, 2] : Fin 3 → Fin S256x16x512.rank)
  concatenates_S256x16x1024_S256x16x1024_S256x16x1024_S256x16x1024_S256x16x512_S256x16x4608_d2 : Shape.Concatenates [S256x16x1024, S256x16x1024, S256x16x1024, S256x16x1024, S256x16x512] S256x16x4608 2
  bcast_S4096_S1x1x4096_2 : S4096.BroadcastsInDim S1x1x4096 (![2] : Fin 1 → Fin S1x1x4096.rank)
  bcast_S1x1x4096_S256x16x4096_0_1_2 : S1x1x4096.BroadcastsInDim S256x16x4096 (![0, 1, 2] : Fin 3 → Fin S256x16x4096.rank)
  bcast_S_S256x16x4096 : S_.BroadcastsInDim S256x16x4096 (![] : Fin 0 → Fin S256x16x4096.rank)
  bcast_S1024_S1x1x1024_2 : S1024.BroadcastsInDim S1x1x1024 (![2] : Fin 1 → Fin S1x1x1024.rank)
  bcast_S1x1x1024_S256x16x1024_0_1_2 : S1x1x1024.BroadcastsInDim S256x16x1024 (![0, 1, 2] : Fin 3 → Fin S256x16x1024.rank)
  reducesTo_S256x16x1024_S256x1024_d1 : S256x16x1024.ReducesTo [1] S256x1024
  h_S_ : 0 < S_.numel
  dot_S256x16x4608_S4608x4096_S256x16x4096_2_0_01_1_n_n_wf : DotDims.WF S256x16x4608 S4608x4096 S256x16x4096 [2] [0] [0, 1] [1] [] []
  dot_S256x16x4096_S4096x1024_S256x16x1024_2_0_01_1_n_n_wf : DotDims.WF S256x16x4096 S4096x1024 S256x16x1024 [2] [0] [0, 1] [1] [] []

variable [Facts₀]

def dot_S256x16x4608_S4608x4096_S256x16x4096_2_0_01_1_n_n : DotDims S256x16x4608 S4608x4096 S256x16x4096 where
  lhsContracting := [2]
  rhsContracting := [0]
  lhsNonContracting := [0, 1]
  rhsNonContracting := [1]
  lhsBatch := []
  rhsBatch := []
  wf := dot_S256x16x4608_S4608x4096_S256x16x4096_2_0_01_1_n_n_wf
def dot_S256x16x4096_S4096x1024_S256x16x1024_2_0_01_1_n_n : DotDims S256x16x4096 S4096x1024 S256x16x1024 where
  lhsContracting := [2]
  rhsContracting := [0]
  lhsNonContracting := [0, 1]
  rhsNonContracting := [1]
  lhsBatch := []
  rhsBatch := []
  wf := dot_S256x16x4096_S4096x1024_S256x16x1024_2_0_01_1_n_n_wf

class Facts : Prop extends Facts₀ where

variable [Facts]
-- ==== Proof.Spec.lean ====
/-
  The two-layer estimator, written twice over the extended reals.

  Data: phases `phi` (256 samples × 1024), per-antenna weights `wr`, `wi` (256 × 1024 × 16 antennas), a shared
  vector `vM` (512 × 16), a first layer `W1` (4608 × 4096) with bias `b1`, a second layer `W2` (4096 × 1024) with
  bias `b2`. For sample `b` and antenna `m` the feature row is the concatenation
  `[mag·cos phi_b, mag·sin phi_b, wr_{b,·,m}, wi_{b,·,m}, vM_{·,m}]` (length 4608); the hidden row is
  `max (row · W1 + b1) 0`; the antenna's estimate is `hidden · W2 + b2`; the result is `phi_b` minus the sum of the
  sixteen antennas' estimates.

  `outR` is that text. `outK` is the arrangement that never builds the feature row: the product with `W1` is split by
  segment of the row (the two phase segments do not depend on the antenna, the last does not depend on the sample),
  the hidden rows are summed over the antennas BEFORE the product with `W2`, that product is taken in eight column
  tiles of 512 summed in order, and the bias `b2` enters once, sixteen-fold.
-/
import Idealize.ShloMosaic.PureOps.Ideal
import Idealize.ShloMosaic.Lib.ValueIdx

noncomputable section

namespace Cert.Spec

open Idealize.ShloMosaic Idealize.ShloMosaic.ValueIdx

abbrev Mat (a b : Nat) : Type := (⟨2, ![a, b]⟩ : Shape).Idx → EReal
abbrev Ten (a b c : Nat) : Type := (⟨3, ![a, b, c]⟩ : Shape).Idx → EReal
abbrev Vct (a : Nat) : Type := (⟨1, ![a]⟩ : Shape).Idx → EReal

/-- The eight argument arrays. -/
structure Args where
  phi : Mat 256 1024
  wr : Ten 256 1024 16
  wi : Ten 256 1024 16
  vM : Mat 512 16
  W1 : Mat 4608 4096
  b1 : Vct 4096
  W2 : Mat 4096 1024
  b2 : Vct 1024

/-- Row `off + k` of the first layer (reduced mod 4608 so that it is total). -/
def row (off k : Nat) : Fin 4608 := ⟨(off + k) % 4608, Nat.mod_lt _ (by norm_num)⟩
/-- Hidden column `512·k + j`: column `j` of tile `k` (reduced mod 4096 so that it is total). -/
def col (k j : Nat) : Fin 4096 := ⟨(512 * k + j) % 4096, Nat.mod_lt _ (by norm_num)⟩
def f1024 (d : Nat) : Fin 1024 := ⟨d % 1024, Nat.mod_lt _ (by norm_num)⟩
def f512 (d : Nat) : Fin 512 := ⟨d % 512, Nat.mod_lt _ (by norm_num)⟩

variable (mag c16 : EReal) (a : Args)

/-- The scaled cosine and sine of the phases. -/
def sr (b : Fin 256) (l : Fin 1024) : EReal := mag * Ideal.cos (a.phi (ix2 b l))
def si (b : Fin 256) (l : Fin 1024) : EReal := mag * Ideal.sin (a.phi (ix2 b l))

/-! ## The split arrangement -/

/-- The two phase segments against rows 0–1023 and 1024–2047 of `W1`: no antenna in it. -/
def uPart (b : Fin 256) (h : Fin 4096) : EReal :=
  (∑ l : Fin 1024, sr mag a b l * a.W1 (ix2 (row 0 l) h)) + ∑ l : Fin 1024, si mag a b l * a.W1 (ix2 (row 1024 l) h)

/-- The two per-antenna segments against rows 2048–3071 and 3072–4095. -/
def pPart (b : Fin 256) (m : Fin 16) (h : Fin 4096) : EReal :=
  (∑ k : Fin 1024, a.wr (ix3 b k m) * a.W1 (ix2 (row 2048 k) h)) + ∑ k : Fin 1024, a.wi (ix3 b k m) * a.W1 (ix2 (row 3072 k) h)

/-- The shared segment against rows 4096–4607: no sample in it. -/
def qPart (m : Fin 16) (h : Fin 4096) : EReal := ∑ k : Fin 512, a.vM (ix2 k m) * a.W1 (ix2 (row 4096 k) h)

def preK (b : Fin 256) (m : Fin 16) (h : Fin 4096) : EReal :=
  pPart a b m h + uPart mag a b h + qPart a m h + a.b1 (ix1 h)

/-- The hidden rows summed over the antennas. -/
def hsumK (b : Fin 256) (h : Fin 4096) : EReal := ∑ m : Fin 16, max (preK mag a b m h) 0

/-- Tile `k` of the second product. -/
def tileK (b : Fin 256) (k : Nat) (l : Fin 1024) : EReal :=
  ∑ j : Fin 512, hsumK mag a b (col k j) * a.W2 (ix2 (col k j) l)

def outK (b : Fin 256) (l : Fin 1024) : EReal :=
  a.phi (ix2 b l) - ((∑ k ∈ Finset.range 8, tileK mag a b k l) + a.b2 (ix1 l) * c16)

/-! ## The plain arrangement -/

/-- Entry `d` of the feature row of sample `b`, antenna `m`. -/
def xcat (b : Fin 256) (m : Fin 16) (d : Nat) : EReal :=
  if d < 1024 then sr mag a b (f1024 d)
  else if d < 2048 then si mag a b (f1024 (d - 1024))
  else if d < 3072 then a.wr (ix3 b (f1024 (d - 2048)) m)
  else if d < 4096 then a.wi (ix3 b (f1024 (d - 3072)) m)
  else a.vM (ix2 (f512 (d - 4096)) m)

def preR (b : Fin 256) (m : Fin 16) (h : Fin 4096) : EReal :=
  (∑ d : Fin 4608, xcat mag a b m d.val * a.W1 (ix2 d h)) + a.b1 (ix1 h)

def etaR (b : Fin 256) (m : Fin 16) (l : Fin 1024) : EReal :=
  (∑ h : Fin 4096, max (preR mag a b m h) 0 * a.W2 (ix2 h l)) + a.b2 (ix1 l)

def outR (b : Fin 256) (l : Fin 1024) : EReal :=
  a.phi (ix2 b l) - ∑ m : Fin 16, etaR mag a b m l

/-- Every entry of every array is a real number. -/
structure Args.Real (a : Args) : Prop where
  phi : ∀ i, ∃ r : ℝ, a.phi i = r
  wr : ∀ i, ∃ r : ℝ, a.wr i = r
  wi : ∀ i, ∃ r : ℝ, a.wi i = r
  vM : ∀ i, ∃ r : ℝ, a.vM i = r
  W1 : ∀ i, ∃ r : ℝ, a.W1 i = r
  b1 : ∀ i, ∃ r : ℝ, a.b1 i = r
  W2 : ∀ i, ∃ r : ℝ, a.W2 i = r
  b2 : ∀ i, ∃ r : ℝ, a.b2 i = r

end Cert.Spec

end
-- ==== Proof.Law.lean ====
/-
  The two arrangements of the two-layer estimator agree.

  Nothing here needs the entries to be finite. The extended reals are a commutative monoid under addition, so every
  step that only regroups or re-indexes a finite sum holds outright: splitting the product of the feature row with
  `W1` into its five segments, reading the eight column tiles of 512 as one sum over the 4096 hidden columns,
  exchanging the sum over the antennas with the sum over the hidden columns, and collecting the sixteen copies of the
  bias `b2`. The one step that distributes a product over a sum, `(∑ m, r m) * w = ∑ m, r m * w`, does so over
  summands `r m = max x 0`, which are non-negative, and over non-negative summands the extended reals do distribute.
-/
import proofs.«166167_j56367150792892_2_alg».proof.Proof.Spec

noncomputable section

namespace Cert.Spec

open Idealize.ShloMosaic Idealize.ShloMosaic.ValueIdx

open scoped BigOperators

/-! ## Facts about finite sums -/

/-- A sum over `0 … 4607` is the sum of its five consecutive segments of lengths 1024, 1024, 1024, 1024, 512. -/
theorem sum_segments {M : Type*} [AddCommMonoid M] (g : ℕ → M) :
    ∑ d ∈ Finset.range 4608, g d
      = (∑ l : Fin 1024, g l.val) + (∑ l : Fin 1024, g (1024 + l.val)) + (∑ l : Fin 1024, g (2048 + l.val))
        + (∑ l : Fin 1024, g (3072 + l.val)) + ∑ k : Fin 512, g (4096 + k.val) := by
  have h : (4608 : ℕ) = 1024 + 1024 + 1024 + 1024 + 512 := by norm_num
  rw [h, Finset.sum_range_add, Finset.sum_range_add, Finset.sum_range_add, Finset.sum_range_add]
  simp only [Finset.sum_range]

/-- Eight tiles of 512 columns exhaust the 4096 columns: `(k, j) ↦ 512·k + j` is a bijection. -/
theorem sum_tiles {M : Type*} [AddCommMonoid M] (F : Fin 4096 → M) :
    ∑ k ∈ Finset.range 8, ∑ j : Fin 512, F (col k j.val) = ∑ h : Fin 4096, F h := by
  rw [Finset.sum_range (fun k => ∑ j : Fin 512, F (col k j.val))]
  rw [← Fintype.sum_prod_type' (fun (k : Fin 8) (j : Fin 512) => F (col k.val j.val))]
  refine Fintype.sum_equiv (finProdFinEquiv : Fin 8 × Fin 512 ≃ Fin (8 * 512)) _ _ ?_
  rintro ⟨k, j⟩
  congr 1
  apply Fin.ext
  have hk := k.isLt
  have hj := j.isLt
  simp only [col, finProdFinEquiv, Equiv.coe_fn_mk]
  omega

/-- Over non-negative summands a product distributes over a finite sum, also in the extended reals. -/
theorem sum_mul_of_nonneg {ι : Type*} (s : Finset ι) (x : ι → EReal) (hx : ∀ i, 0 ≤ x i) (w : EReal) :
    (∑ i ∈ s, x i) * w = ∑ i ∈ s, x i * w := by
  classical
  induction s using Finset.induction_on with
  | empty => simp
  | insert i s hi ih =>
    rw [Finset.sum_insert hi, Finset.sum_insert hi,
      EReal.right_distrib_of_nonneg (hx i) (Finset.sum_nonneg fun j _ => hx j), ih]

/-- Sixteen copies of `x` add up to `x · 16`. -/
theorem sum_sixteen (x : EReal) : ∑ _m : Fin 16, x = x * ((16 : ℝ) : EReal) := by
  rw [Finset.sum_const, Finset.card_univ, Fintype.card_fin, EReal.nsmul_eq_mul, mul_comm]
  norm_cast

/-! ## The index maps on their ranges -/

theorem f1024_val (l : Fin 1024) : f1024 l.val = l := Fin.ext (Nat.mod_eq_of_lt l.isLt)

theorem f1024_add_sub (c : ℕ) (l : Fin 1024) : f1024 (c + l.val - c) = l := by
  rw [Nat.add_sub_cancel_left]; exact f1024_val l

theorem f512_add_sub (c : ℕ) (k : Fin 512) : f512 (c + k.val - c) = k := by
  rw [Nat.add_sub_cancel_left]; exact Fin.ext (Nat.mod_eq_of_lt k.isLt)

theorem row_zero_add (c k : ℕ) : row 0 (c + k) = row c k := by
  simp only [row, Nat.zero_add]

theorem row_zero_val (d : Fin 4608) : row 0 d.val = d :=
  Fin.ext (by simp only [row, Nat.zero_add]; exact Nat.mod_eq_of_lt d.isLt)

/-! ## The feature row, segment by segment -/

variable (mag : EReal) (a : Args) (b : Fin 256) (m : Fin 16)

theorem xcat_seg0 (l : Fin 1024) : xcat mag a b m l.val = sr mag a b l := by
  unfold xcat; rw [if_pos l.isLt, f1024_val]

theorem xcat_seg1 (l : Fin 1024) : xcat mag a b m (1024 + l.val) = si mag a b l := by
  have := l.isLt
  unfold xcat; rw [if_neg (by omega), if_pos (by omega), f1024_add_sub]

theorem xcat_seg2 (l : Fin 1024) : xcat mag a b m (2048 + l.val) = a.wr (ix3 b l m) := by
  have := l.isLt
  unfold xcat; rw [if_neg (by omega), if_neg (by omega), if_pos (by omega), f1024_add_sub]

theorem xcat_seg3 (l : Fin 1024) : xcat mag a b m (3072 + l.val) = a.wi (ix3 b l m) := by
  have := l.isLt
  unfold xcat; rw [if_neg (by omega), if_neg (by omega), if_neg (by omega), if_pos (by omega), f1024_add_sub]

theorem xcat_seg4 (k : Fin 512) : xcat mag a b m (4096 + k.val) = a.vM (ix2 k m) := by
  unfold xcat
  rw [if_neg (by omega), if_neg (by omega), if_neg (by omega), if_neg (by omega), f512_add_sub]

/-! ## The pre-activations agree -/

/-- The product of the feature row with a column of `W1` is the sum of the five segment products, so the plain
    pre-activation is the split one up to the order of the additions. -/
theorem preR_eq_preK (h : Fin 4096) : preR mag a b m h = preK mag a b m h := by
  have h1 : ∑ d : Fin 4608, xcat mag a b m d.val * a.W1 (ix2 d h)
      = ∑ d ∈ Finset.range 4608, xcat mag a b m d * a.W1 (ix2 (row 0 d) h) := by
    rw [Finset.sum_range (fun d => xcat mag a b m d * a.W1 (ix2 (row 0 d) h))]
    exact Finset.sum_congr rfl fun d _ => by rw [row_zero_val d]
  unfold preR preK pPart uPart qPart
  rw [h1, sum_segments]
  simp only [xcat_seg0, xcat_seg1, xcat_seg2, xcat_seg3, xcat_seg4, row_zero_add]
  abel

/-! ## The law -/

/-- The two arrangements agree, for every scale `mag` and every (possibly infinite) entries. -/
theorem outK_eq_outR_gen (l : Fin 1024) :
    outK mag ((16 : ℝ) : EReal) a b l = outR mag a b l := by
  unfold outK outR
  congr 1
  unfold etaR
  rw [Finset.sum_add_distrib, sum_sixteen]
  congr 1
  unfold tileK
  rw [sum_tiles (fun h => hsumK mag a b h * a.W2 (ix2 h l)), Finset.sum_comm]
  refine Finset.sum_congr rfl fun h _ => ?_
  unfold hsumK
  rw [sum_mul_of_nonneg _ _ (fun m => le_max_right _ _)]
  refine Finset.sum_congr rfl fun m _ => ?_
  rw [preR_eq_preK]

/-- The law at the constants `mag = 1/32`, `c16 = 16`. The hypothesis that the entries are real is not needed for it. -/
theorem outK_eq_outR (a : Args) (ha : a.Real) (b : Fin 256) (l : Fin 1024) :
    outK (((1 / 32 : ℝ) : ℝ) : EReal) ((16 : ℝ) : EReal) a b l = outR (((1 / 32 : ℝ) : ℝ) : EReal) a b l :=
  outK_eq_outR_gen _ a b l

end Cert.Spec

end
-- ==== Proof.Consts.lean ====
/-
  The values, over the extended reals, of the four float words the reference program mentions besides zero,
  and the value of its scale `1 / sqrt 1024 = 1/32`.
-/
import Idealize.ShloMosaic.PureOps.Ideal
import Idealize.ShloMosaic.PureOps.Ideal.Laws

namespace Cert.Consts

open Idealize.ShloMosaic

/-- The word `0x3D000000` is `2⁻⁵ = 1/32`. -/
theorem ofBits_inv32 : Ideal.ofBits .f32 0x3D000000#32 = ((1/32 : ℝ) : EReal) := by
  simp [Ideal.ofBits, Ideal.ieee, -EReal.coe_mul]; norm_num

/-- The word `0x41800000` is `2⁴ = 16`. -/
theorem ofBits_16 : Ideal.ofBits .f32 0x41800000#32 = ((16 : ℝ) : EReal) := by
  simp [Ideal.ofBits, Ideal.ieee, -EReal.coe_mul]; norm_num

/-- The word `0x44800000` is `2¹⁰ = 1024`. -/
theorem ofBits_1024 : Ideal.ofBits .f32 0x44800000#32 = ((1024 : ℝ) : EReal) := by
  simp [Ideal.ofBits, Ideal.ieee, -EReal.coe_mul]; norm_num

/-- The word `0x3F800000` is `1`. -/
theorem ofBits_one : Ideal.ofBits .f32 0x3F800000#32 = ((1 : ℝ) : EReal) := by
  simp [Ideal.ofBits, Ideal.ieee, -EReal.coe_mul]; norm_num

/-- `sqrt 1024 = 32`, since `32² = 1024`. -/
theorem sqrt_1024 : Real.sqrt 1024 = 32 := by
  rw [show (1024 : ℝ) = 32 ^ 2 by norm_num]
  exact Real.sqrt_sq (by norm_num)

/-- The reference's scale: `1 / sqrt 1024 = 1/32`. -/
theorem mag_eq :
    Ideal.div (Ideal.ofBits .f32 0x3F800000#32) (Ideal.hostUnary .sqrt (Ideal.ofBits .f32 0x44800000#32))
      = ((1/32 : ℝ) : EReal) := by
  rw [ofBits_one, ofBits_1024]
  show Ideal.div _ (Ideal.sqrt ((1024 : ℝ) : EReal)) = _
  rw [Ideal.sqrt_coe, if_neg (by norm_num), sqrt_1024, Ideal.div_coe (by norm_num)]
  rw [← EReal.coe_mul]; norm_num

end Cert.Consts
-- ==== Proof.Finite.lean ====
/-
  From the printed precondition to "every entry of every argument array is a real number".

  The precondition compares, for each of the eight arrays, the absolute value of every entry with `+∞` (strictly
  below), takes the conjunction over the array, and then the conjunction of the eight results. Over the extended
  reals `|x| = max x (-x)`, and `max x (-x) < ⊤` excludes both `x = ⊤` and `x = ⊥` (whose negation is `⊤`):
  what is left is a real.
-/
import proofs.«166167_j56367150792892_2_alg».proof.Pre_finite_inputs
import proofs.«166167_j56367150792892_2_alg».proof.Proof.Spec
import Idealize.ShloMosaic.Lib.ReduceAll
import Idealize.ShloMosaic.PureOps.Ideal.Laws

namespace Cert.Finite

open Idealize.ShloMosaic Cert.Pre_finite_inputs

/-- The rank-0 shape has one index. -/
instance : Subsingleton S_.Idx := ⟨fun _ _ => funext fun d => d.elim0⟩

/-- The word `0x7F800000` is `+∞`. -/
theorem ofBits_inf : Ideal.ofBits .f32 0x7F800000#32 = (⊤ : EReal) := by simp [Ideal.ofBits, Ideal.ieee]

/-- An extended real whose absolute value is strictly below `+∞` is a real. -/
theorem real_of_abs_lt (x : EReal)
    (h : Ideal.cmp .olt (max x (-x)) (Ideal.ofBits .f32 0x7F800000#32) = 1#1) : ∃ r : ℝ, x = r := by
  rw [ofBits_inf] at h
  induction x using EReal.rec with
  | bot => simp [Ideal.cmp] at h
  | coe r => exact ⟨r, rfl⟩
  | top => simp [Ideal.cmp] at h

/-- One array: if the conjunction over the array of `|x i| < +∞` is 1, every entry is a real. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
          (constantI S_ 1 1#1) hr hu ValueIdx.ix0 = 1#1) (i : s.Idx) : ∃ r : ℝ, x i = r :=
  real_of_abs_lt (x i) (Host.reduce_andi_all _ _ hr hu _ e i)

variable [Facts]

/-- The precondition all ones: every entry of the eight arrays is a real. -/
theorem real_of_pre (x0 : FVec Ideal S256x1024 .f32) (x1 x2 : FVec Ideal S256x1024x16 .f32)
    (x3 : FVec Ideal S512x16 .f32) (x4 : FVec Ideal S4608x4096 .f32) (x5 : FVec Ideal S4096 .f32)
    (x6 : FVec Ideal S4096x1024 .f32) (x7 : FVec Ideal S1024 .f32)
    (h : fn (F := Ideal) x0 x1 x2 x3 x4 x5 x6 x7 = fun _ => 1#1) :
    (⟨x0, x1, x2, x3, x4, x5, x6, x7⟩ : Cert.Spec.Args).Real := by
  have h0 := congrFun h ValueIdx.ix0
  dsimp only [fn, fn_part1, fn_part2, andi] at h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨all_real x0 _ _ _ h0, all_real x1 _ _ _ h1, all_real x2 _ _ _ h2, all_real x3 _ _ _ h3,
    all_real x4 _ _ _ h4, all_real x5 _ _ _ h5, all_real x6 _ _ _ h6, all_real x7 _ _ _ h7⟩

end Cert.Finite
-- ==== Proof.RefValue.lean ====
/-
  The reference program's result, read one operation at a time, is the specification's plain arrangement `outR`
  at the scale `1/32`.

  The reference scales the cosine and the sine of the phases by `1 / sqrt 1024 = 1/32`, repeats them over the
  sixteen antennas, transposes the per-antenna weights so that the antenna is the middle axis, repeats the shared
  vector over the samples, and joins the five along the last axis into the feature row of length
  `1024 + 1024 + 1024 + 1024 + 512 = 4608`. Entry `d` of the row is therefore entry `d - pre` of the piece whose
  span `[pre, pre + extent)` holds `d`: this is `xcat`. The row times the first layer plus its bias is `preR`; the
  maximum with zero, times the second layer, plus its bias is `etaR`; the sum over the antennas, started at zero,
  subtracted from the phase is `outR`.
-/
import proofs.«166167_j56367150792892_2_alg».proof.Proof.Gen.ReferenceIdeal.Read
import proofs.«166167_j56367150792892_2_alg».proof.Proof.Spec
import proofs.«166167_j56367150792892_2_alg».proof.Proof.Consts

noncomputable section

namespace Cert.RefValue

open Cert.ReferenceIdeal Cert.ReferenceIdeal.Gen Cert.ReferenceIdeal.Read Idealize.ShloMosaic Idealize.ShloMosaic.ValueIdx

/-- The reference's scale. -/
abbrev mag : EReal := ((1/32 : ℝ) : EReal)

/-- The scale `1 / sqrt 1024` is `1/32`. -/
theorem v1_eq (j : S_.Idx) : val_main_v1 (F := Ideal) j = mag := Cert.Consts.mag_eq

/-- The scaled cosine at sample `b`, position `l`. -/
theorem v4_at (x0 : (⟨S256x1024, .f32⟩ : BufTy).Contents (Elt Ideal)) (b : Fin 256) (l : Fin 1024) :
    val_main_v4 (F := Ideal) x0 (ix2 b l) = mag * Ideal.cos (x0 (ix2 b l)) := by
  rw [val_main_v4_apply, val_main_v3_apply, v1_eq, val_main_v2_apply]
  rfl

/-- The scaled sine at sample `b`, position `l`. -/
theorem v7_at (x0 : (⟨S256x1024, .f32⟩ : BufTy).Contents (Elt Ideal)) (b : Fin 256) (l : Fin 1024) :
    val_main_v7 (F := Ideal) x0 (ix2 b l) = mag * Ideal.sin (x0 (ix2 b l)) := by
  rw [val_main_v7_apply, val_main_v6_apply, v1_eq, val_main_v5_apply]
  rfl

/-- The cosine segment does not depend on the antenna. -/
theorem v9_at (x0 : (⟨S256x1024, .f32⟩ : BufTy).Contents (Elt Ideal)) (b : Fin 256) (m : Fin 16) (k : Fin 1024) :
    val_main_v9 (F := Ideal) x0 (ix3 b m k) = mag * Ideal.cos (x0 (ix2 b k)) := by
  rw [val_main_v9_apply, val_main_v8_apply]
  have e : idx_main_v8 (idx_main_v9 (ix3 b m k)) = ix2 b k :=
    funext fun a => Fin.ext (by match a with | ⟨0, _⟩ => rfl | ⟨1, _⟩ => rfl)
  rw [e, v4_at]

/-- The sine segment does not depend on the antenna. -/
theorem v11_at (x0 : (⟨S256x1024, .f32⟩ : BufTy).Contents (Elt Ideal)) (b : Fin 256) (m : Fin 16) (k : Fin 1024) :
    val_main_v11 (F := Ideal) x0 (ix3 b m k) = mag * Ideal.sin (x0 (ix2 b k)) := by
  rw [val_main_v11_apply, val_main_v10_apply]
  have e : idx_main_v10 (idx_main_v11 (ix3 b m k)) = ix2 b k :=
    funext fun a => Fin.ext (by match a with | ⟨0, _⟩ => rfl | ⟨1, _⟩ => rfl)
  rw [e, v7_at]

/-- The transposed real weights: entry `(b, m, k)` reads `(b, k, m)`. -/
theorem v12_at (x1 : (⟨S256x1024x16, .f32⟩ : BufTy).Contents (Elt Ideal)) (b : Fin 256) (m : Fin 16) (k : Fin 1024) :
    val_main_v12 (F := Ideal) x1 (ix3 b m k) = x1 (ix3 b k m) := by
  rw [val_main_v12_apply]
  exact congrArg x1 (funext fun a => Fin.ext (by match a with | ⟨0, _⟩ => rfl | ⟨1, _⟩ => rfl | ⟨2, _⟩ => rfl))

/-- The transposed imaginary weights: entry `(b, m, k)` reads `(b, k, m)`. -/
theorem v13_at (x2 : (⟨S256x1024x16, .f32⟩ : BufTy).Contents (Elt Ideal)) (b : Fin 256) (m : Fin 16) (k : Fin 1024) :
    val_main_v13 (F := Ideal) x2 (ix3 b m k) = x2 (ix3 b k m) := by
  rw [val_main_v13_apply]
  exact congrArg x2 (funext fun a => Fin.ext (by match a with | ⟨0, _⟩ => rfl | ⟨1, _⟩ => rfl | ⟨2, _⟩ => rfl))

/-- The shared segment: entry `(b, m, k)` reads `vM (k, m)`, whatever the sample. -/
theorem v16_at (x3 : (⟨S512x16, .f32⟩ : BufTy).Contents (Elt Ideal)) (b : Fin 256) (m : Fin 16) (k : Fin 512) :
    val_main_v16 (F := Ideal) x3 (ix3 b m k) = x3 (ix2 k m) := by
  rw [val_main_v16_apply, val_main_v15_apply, val_main_v14_apply]
  exact congrArg x3 (funext fun a => Fin.ext (by match a with | ⟨0, _⟩ => rfl | ⟨1, _⟩ => rfl))

/-! ## The feature row: the five-piece concatenation along the last axis, read piece by piece

Piece `k` starts at the sum `pre` of the extents before it; coordinate `d = pre + e` of the row is coordinate `e` of the piece. -/

/-- Coordinates \`0 + e\` fall in the first piece (the cosine segment). -/
theorem v17_piece0 (x0 : (⟨S256x1024, .f32⟩ : BufTy).Contents (Elt Ideal)) (x1 x2 : (⟨S256x1024x16, .f32⟩ : BufTy).Contents (Elt Ideal)) (x3 : (⟨S512x16, .f32⟩ : BufTy).Contents (Elt Ideal)) (b : Fin 256) (m : Fin 16) (d : Fin 4608) (e : Fin 1024) (hde : 0 + e.val = d.val) :
    val_main_v17 (F := Ideal) x0 x1 x2 x3 (ix3 b m d) = val_main_v9 (F := Ideal) x0 (ix3 b m e) := by
  unfold val_main_v17
  refine concatenate_apply_piece (t := S256x16x4608) 2 _ _ (ix3 b m d) 0 ?_ S256x16x1024
    (val_main_v9 (F := Ideal) x0) rfl rfl 0 ?_ (ix3 b m e) ?_ hde
  · show 0 < 5; omega
  · rfl
  · intro c hc
    match c, hc with
    | ⟨0, _⟩, _ => rfl
    | ⟨1, _⟩, _ => rfl
    | ⟨2, _⟩, hc => exact absurd rfl hc

/-- Coordinates \`1024 + e\` fall in the second piece (the sine segment). -/
theorem v17_piece1 (x0 : (⟨S256x1024, .f32⟩ : BufTy).Contents (Elt Ideal)) (x1 x2 : (⟨S256x1024x16, .f32⟩ : BufTy).Contents (Elt Ideal)) (x3 : (⟨S512x16, .f32⟩ : BufTy).Contents (Elt Ideal)) (b : Fin 256) (m : Fin 16) (d : Fin 4608) (e : Fin 1024) (hde : 1024 + e.val = d.val) :
    val_main_v17 (F := Ideal) x0 x1 x2 x3 (ix3 b m d) = val_main_v11 (F := Ideal) x0 (ix3 b m e) := by
  unfold val_main_v17
  refine concatenate_apply_piece (t := S256x16x4608) 2 _ _ (ix3 b m d) 1 ?_ S256x16x1024
    (val_main_v11 (F := Ideal) x0) rfl rfl 1024 ?_ (ix3 b m e) ?_ hde
  · show 1 < 5; omega
  · rfl
  · intro c hc
    match c, hc with
    | ⟨0, _⟩, _ => rfl
    | ⟨1, _⟩, _ => rfl
    | ⟨2, _⟩, hc => exact absurd rfl hc

/-- Coordinates \`2048 + e\` fall in the third piece (the real weights). -/
theorem v17_piece2 (x0 : (⟨S256x1024, .f32⟩ : BufTy).Contents (Elt Ideal)) (x1 x2 : (⟨S256x1024x16, .f32⟩ : BufTy).Contents (Elt Ideal)) (x3 : (⟨S512x16, .f32⟩ : BufTy).Contents (Elt Ideal)) (b : Fin 256) (m : Fin 16) (d : Fin 4608) (e : Fin 1024) (hde : 2048 + e.val = d.val) :
    val_main_v17 (F := Ideal) x0 x1 x2 x3 (ix3 b m d) = val_main_v12 (F := Ideal) x1 (ix3 b m e) := by
  unfold val_main_v17
  refine concatenate_apply_piece (t := S256x16x4608) 2 _ _ (ix3 b m d) 2 ?_ S256x16x1024
    (val_main_v12 (F := Ideal) x1) rfl rfl 2048 ?_ (ix3 b m e) ?_ hde
  · show 2 < 5; omega
  · rfl
  · intro c hc
    match c, hc with
    | ⟨0, _⟩, _ => rfl
    | ⟨1, _⟩, _ => rfl
    | ⟨2, _⟩, hc => exact absurd rfl hc

/-- Coordinates \`3072 + e\` fall in the fourth piece (the imaginary weights). -/
theorem v17_piece3 (x0 : (⟨S256x1024, .f32⟩ : BufTy).Contents (Elt Ideal)) (x1 x2 : (⟨S256x1024x16, .f32⟩ : BufTy).Contents (Elt Ideal)) (x3 : (⟨S512x16, .f32⟩ : BufTy).Contents (Elt Ideal)) (b : Fin 256) (m : Fin 16) (d : Fin 4608) (e : Fin 1024) (hde : 3072 + e.val = d.val) :
    val_main_v17 (F := Ideal) x0 x1 x2 x3 (ix3 b m d) = val_main_v13 (F := Ideal) x2 (ix3 b m e) := by
  unfold val_main_v17
  refine concatenate_apply_piece (t := S256x16x4608) 2 _ _ (ix3 b m d) 3 ?_ S256x16x1024
    (val_main_v13 (F := Ideal) x2) rfl rfl 3072 ?_ (ix3 b m e) ?_ hde
  · show 3 < 5; omega
  · rfl
  · intro c hc
    match c, hc with
    | ⟨0, _⟩, _ => rfl
    | ⟨1, _⟩, _ => rfl
    | ⟨2, _⟩, hc => exact absurd rfl hc

/-- Coordinates \`4096 + e\` fall in the last piece (the shared vector). -/
theorem v17_piece4 (x0 : (⟨S256x1024, .f32⟩ : BufTy).Contents (Elt Ideal)) (x1 x2 : (⟨S256x1024x16, .f32⟩ : BufTy).Contents (Elt Ideal)) (x3 : (⟨S512x16, .f32⟩ : BufTy).Contents (Elt Ideal)) (b : Fin 256) (m : Fin 16) (d : Fin 4608) (e : Fin 512) (hde : 4096 + e.val = d.val) :
    val_main_v17 (F := Ideal) x0 x1 x2 x3 (ix3 b m d) = val_main_v16 (F := Ideal) x3 (ix3 b m e) := by
  unfold val_main_v17
  refine concatenate_apply_piece (t := S256x16x4608) 2 _ _ (ix3 b m d) 4 ?_ S256x16x512
    (val_main_v16 (F := Ideal) x3) rfl rfl 4096 ?_ (ix3 b m e) ?_ hde
  · show 4 < 5; omega
  · rfl
  · intro c hc
    match c, hc with
    | ⟨0, _⟩, _ => rfl
    | ⟨1, _⟩, _ => rfl
    | ⟨2, _⟩, hc => exact absurd rfl hc

/-! ## The feature row is the specification's `xcat` -/

/-- Entry `d` of the feature row of sample `b`, antenna `m`: the piece that holds `d`, at `d` minus the piece's start. -/
theorem v17_at (x0 : (⟨S256x1024, .f32⟩ : BufTy).Contents (Elt Ideal)) (x1 x2 : (⟨S256x1024x16, .f32⟩ : BufTy).Contents (Elt Ideal)) (x3 : (⟨S512x16, .f32⟩ : BufTy).Contents (Elt Ideal)) (x4 : (⟨S4608x4096, .f32⟩ : BufTy).Contents (Elt Ideal)) (x5 : (⟨S4096, .f32⟩ : BufTy).Contents (Elt Ideal)) (x6 : (⟨S4096x1024, .f32⟩ : BufTy).Contents (Elt Ideal)) (x7 : (⟨S1024, .f32⟩ : BufTy).Contents (Elt Ideal)) (b : Fin 256) (m : Fin 16) (d : Fin 4608) :
    val_main_v17 (F := Ideal) x0 x1 x2 x3 (ix3 b m d) = Cert.Spec.xcat mag (⟨x0, x1, x2, x3, x4, x5, x6, x7⟩ : Cert.Spec.Args) b m d.val := by
  have hd := d.isLt
  have e1 : ∀ n, (Cert.Spec.f1024 n).val = n % 1024 := fun _ => rfl
  have e5 : ∀ n, (Cert.Spec.f512 n).val = n % 512 := fun _ => rfl
  unfold Cert.Spec.xcat
  split_ifs with h1 h2 h3 h4
  · rw [v17_piece0 x0 x1 x2 x3 b m d (Cert.Spec.f1024 d.val) (by rw [e1]; omega), v9_at]; rfl
  · rw [v17_piece1 x0 x1 x2 x3 b m d (Cert.Spec.f1024 (d.val - 1024)) (by rw [e1]; omega), v11_at]; rfl
  · rw [v17_piece2 x0 x1 x2 x3 b m d (Cert.Spec.f1024 (d.val - 2048)) (by rw [e1]; omega), v12_at]
  · rw [v17_piece3 x0 x1 x2 x3 b m d (Cert.Spec.f1024 (d.val - 3072)) (by rw [e1]; omega), v13_at]
  · rw [v17_piece4 x0 x1 x2 x3 b m d (Cert.Spec.f512 (d.val - 4096)) (by rw [e5]; omega), v16_at]

/-! ## The first layer -/

/-- The product of the feature row with the first layer. -/
theorem v18_at (x0 : (⟨S256x1024, .f32⟩ : BufTy).Contents (Elt Ideal)) (x1 x2 : (⟨S256x1024x16, .f32⟩ : BufTy).Contents (Elt Ideal)) (x3 : (⟨S512x16, .f32⟩ : BufTy).Contents (Elt Ideal)) (x4 : (⟨S4608x4096, .f32⟩ : BufTy).Contents (Elt Ideal)) (x5 : (⟨S4096, .f32⟩ : BufTy).Contents (Elt Ideal)) (x6 : (⟨S4096x1024, .f32⟩ : BufTy).Contents (Elt Ideal)) (x7 : (⟨S1024, .f32⟩ : BufTy).Contents (Elt Ideal)) (b : Fin 256) (m : Fin 16) (h : Fin 4096) :
    val_main_v18 (F := Ideal) x0 x1 x2 x3 x4 (ix3 b m h)
      = ∑ d : Fin 4608, Cert.Spec.xcat mag (⟨x0, x1, x2, x3, x4, x5, x6, x7⟩ : Cert.Spec.Args) b m d.val * x4 (ix2 d h) := by
  rw [val_main_v18_apply]
  refine Finset.sum_congr rfl fun d _ => ?_
  have el : lidx_main_v18 (ix3 b m h) d = ix3 b m d :=
    funext fun a => Fin.ext (by match a with | ⟨0, _⟩ => rfl | ⟨1, _⟩ => rfl | ⟨2, _⟩ => rfl)
  have er : ridx_main_v18 (ix3 b m h) d = ix2 d h :=
    funext fun a => Fin.ext (by match a with | ⟨0, _⟩ => rfl | ⟨1, _⟩ => rfl)
  rw [el, er, v17_at x0 x1 x2 x3 x4 x5 x6 x7]

/-- The first layer before the rectifier: the product plus the bias. -/
theorem v21_at (x0 : (⟨S256x1024, .f32⟩ : BufTy).Contents (Elt Ideal)) (x1 x2 : (⟨S256x1024x16, .f32⟩ : BufTy).Contents (Elt Ideal)) (x3 : (⟨S512x16, .f32⟩ : BufTy).Contents (Elt Ideal)) (x4 : (⟨S4608x4096, .f32⟩ : BufTy).Contents (Elt Ideal)) (x5 : (⟨S4096, .f32⟩ : BufTy).Contents (Elt Ideal)) (x6 : (⟨S4096x1024, .f32⟩ : BufTy).Contents (Elt Ideal)) (x7 : (⟨S1024, .f32⟩ : BufTy).Contents (Elt Ideal)) (b : Fin 256) (m : Fin 16) (h : Fin 4096) :
    val_main_v21 (F := Ideal) x0 x1 x2 x3 x4 x5 (ix3 b m h) = Cert.Spec.preR mag (⟨x0, x1, x2, x3, x4, x5, x6, x7⟩ : Cert.Spec.Args) b m h := by
  rw [val_main_v21_apply, v18_at x0 x1 x2 x3 x4 x5 x6 x7, val_main_v20_apply, val_main_v19_apply]
  have e : idx_main_v19 (idx_main_v20 (ix3 b m h)) = ix1 h :=
    funext fun a => Fin.ext (by match a with | ⟨0, _⟩ => rfl)
  rw [e]; rfl

/-- The hidden row: the rectifier is the maximum with the zero word. -/
theorem v22_at (x0 : (⟨S256x1024, .f32⟩ : BufTy).Contents (Elt Ideal)) (x1 x2 : (⟨S256x1024x16, .f32⟩ : BufTy).Contents (Elt Ideal)) (x3 : (⟨S512x16, .f32⟩ : BufTy).Contents (Elt Ideal)) (x4 : (⟨S4608x4096, .f32⟩ : BufTy).Contents (Elt Ideal)) (x5 : (⟨S4096, .f32⟩ : BufTy).Contents (Elt Ideal)) (x6 : (⟨S4096x1024, .f32⟩ : BufTy).Contents (Elt Ideal)) (x7 : (⟨S1024, .f32⟩ : BufTy).Contents (Elt Ideal)) (b : Fin 256) (m : Fin 16) (h : Fin 4096) :
    val_main_v22 (F := Ideal) x0 x1 x2 x3 x4 x5 (ix3 b m h) = max (Cert.Spec.preR mag (⟨x0, x1, x2, x3, x4, x5, x6, x7⟩ : Cert.Spec.Args) b m h) 0 := by
  rw [val_main_v22_apply, v21_at x0 x1 x2 x3 x4 x5 x6 x7, val_main_call0_v0_apply, val_main_call0_cst_apply]
  show max _ (Ideal.ofBits .f32 0x00000000#32) = _
  rw [Ideal.ofBits_zero_f32]

/-! ## The second layer, the sum over the antennas, the result -/

/-- The antenna's estimate: the hidden row times the second layer, plus the bias. -/
theorem v26_at (x0 : (⟨S256x1024, .f32⟩ : BufTy).Contents (Elt Ideal)) (x1 x2 : (⟨S256x1024x16, .f32⟩ : BufTy).Contents (Elt Ideal)) (x3 : (⟨S512x16, .f32⟩ : BufTy).Contents (Elt Ideal)) (x4 : (⟨S4608x4096, .f32⟩ : BufTy).Contents (Elt Ideal)) (x5 : (⟨S4096, .f32⟩ : BufTy).Contents (Elt Ideal)) (x6 : (⟨S4096x1024, .f32⟩ : BufTy).Contents (Elt Ideal)) (x7 : (⟨S1024, .f32⟩ : BufTy).Contents (Elt Ideal)) (b : Fin 256) (m : Fin 16) (l : Fin 1024) :
    val_main_v26 (F := Ideal) x0 x1 x2 x3 x4 x5 x6 x7 (ix3 b m l) = Cert.Spec.etaR mag (⟨x0, x1, x2, x3, x4, x5, x6, x7⟩ : Cert.Spec.Args) b m l := by
  rw [val_main_v26_apply, val_main_v23_apply, val_main_v25_apply, val_main_v24_apply]
  have e : idx_main_v24 (idx_main_v25 (ix3 b m l)) = ix1 l :=
    funext fun a => Fin.ext (by match a with | ⟨0, _⟩ => rfl)
  have hs : ∀ h : Fin 4096,
      val_main_v22 (F := Ideal) x0 x1 x2 x3 x4 x5 (lidx_main_v23 (ix3 b m l) h) * x6 (ridx_main_v23 (ix3 b m l) h)
        = max (Cert.Spec.preR mag (⟨x0, x1, x2, x3, x4, x5, x6, x7⟩ : Cert.Spec.Args) b m h) 0 * x6 (ix2 h l) := fun h => by
    have el : lidx_main_v23 (ix3 b m l) h = ix3 b m h :=
      funext fun a => Fin.ext (by match a with | ⟨0, _⟩ => rfl | ⟨1, _⟩ => rfl | ⟨2, _⟩ => rfl)
    have er : ridx_main_v23 (ix3 b m l) h = ix2 h l :=
      funext fun a => Fin.ext (by match a with | ⟨0, _⟩ => rfl | ⟨1, _⟩ => rfl)
    rw [el, er, v22_at x0 x1 x2 x3 x4 x5 x6 x7]
  rw [e, Finset.sum_congr rfl fun h _ => hs h]
  rfl

/-- The sum over the sixteen antennas, started at the zero word. -/
theorem v27_at (x0 : (⟨S256x1024, .f32⟩ : BufTy).Contents (Elt Ideal)) (x1 x2 : (⟨S256x1024x16, .f32⟩ : BufTy).Contents (Elt Ideal)) (x3 : (⟨S512x16, .f32⟩ : BufTy).Contents (Elt Ideal)) (x4 : (⟨S4608x4096, .f32⟩ : BufTy).Contents (Elt Ideal)) (x5 : (⟨S4096, .f32⟩ : BufTy).Contents (Elt Ideal)) (x6 : (⟨S4096x1024, .f32⟩ : BufTy).Contents (Elt Ideal)) (x7 : (⟨S1024, .f32⟩ : BufTy).Contents (Elt Ideal)) (b : Fin 256) (l : Fin 1024) :
    val_main_v27 (F := Ideal) x0 x1 x2 x3 x4 x5 x6 x7 (ix2 b l) = ∑ m : Fin 16, Cert.Spec.etaR mag (⟨x0, x1, x2, x3, x4, x5, x6, x7⟩ : Cert.Spec.Args) b m l := by
  rw [val_main_v27_apply, val_main_cst_1_apply]
  have hs : ∀ m : Fin 16, val_main_v26 (F := Ideal) x0 x1 x2 x3 x4 x5 x6 x7 (idx_main_v27 (ix2 b l) m)
      = Cert.Spec.etaR mag (⟨x0, x1, x2, x3, x4, x5, x6, x7⟩ : Cert.Spec.Args) b m l := fun m => by
    have e : idx_main_v27 (ix2 b l) m = ix3 b m l :=
      funext fun a => Fin.ext (by match a with | ⟨0, _⟩ => rfl | ⟨1, _⟩ => rfl | ⟨2, _⟩ => rfl)
    rw [e, v26_at]
  rw [Finset.sum_congr rfl fun m _ => hs m]
  show Ideal.ofBits .f32 0x00000000#32 + _ = _
  rw [Ideal.ofBits_zero_f32, zero_add]

/-- **The reference's result is the specification's plain arrangement**, with the scale `1/32`. -/
theorem ref_eq (x0 : (⟨S256x1024, .f32⟩ : BufTy).Contents (Elt Ideal)) (x1 x2 : (⟨S256x1024x16, .f32⟩ : BufTy).Contents (Elt Ideal)) (x3 : (⟨S512x16, .f32⟩ : BufTy).Contents (Elt Ideal)) (x4 : (⟨S4608x4096, .f32⟩ : BufTy).Contents (Elt Ideal)) (x5 : (⟨S4096, .f32⟩ : BufTy).Contents (Elt Ideal)) (x6 : (⟨S4096x1024, .f32⟩ : BufTy).Contents (Elt Ideal)) (x7 : (⟨S1024, .f32⟩ : BufTy).Contents (Elt Ideal)) (i : S256x1024.Idx) :
    val_main_v28 (F := Ideal) x0 x1 x2 x3 x4 x5 x6 x7 i
      = Cert.Spec.outR ((1/32 : ℝ) : EReal) (⟨x0, x1, x2, x3, x4, x5, x6, x7⟩ : Cert.Spec.Args) (i 0) (i 1) := by
  obtain ⟨b, l, rfl⟩ : ∃ (b : Fin 256) (l : Fin 1024), i = ix2 b l := ⟨i 0, i 1, eq_ix2 i⟩
  rw [val_main_v28_apply, v27_at]
  rfl

end Cert.RefValue

end
-- ==== Proof.LibPlainMatmul.lean ====
/-
  A matrix product into a zero accumulator, read at one entry, over the extended reals.

  For any extents M, K, N: the product of an M×K matrix and a K×N matrix with the plain dimension numbers (the left
  operand's axis 1 contracted with the right operand's axis 0, no batch axes), accumulated into the zero matrix, is at
  entry (p, n) the sum over k of left(p, k) · right(k, n). The accumulator contributes 0 + ·, the contraction index
  of the product is one coordinate k, and the operand indices at (p, n) and k are (p, k) and (k, n).
-/
import Idealize.ShloMosaic.Lib.ValueIdx
import Idealize.ShloMosaic.PureOps.Ideal.Laws

namespace Cert.LibPlainMatmul

open Idealize.ShloMosaic Idealize.ShloMosaic.ValueIdx

/-- The left operand's index at result entry `(p, n)` and contraction coordinate `k` is `(p, k)`. -/
theorem plain_lhsIdx {M K N : ℕ} (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl _ _).trans
        (contrEquiv1_symm_val (DotDims.plain M K N) K rfl rfl k))

/-- The right operand's index at result entry `(p, n)` and contraction coordinate `k` is `(k, n)`. -/
theorem plain_rhsIdx {M K N : ℕ} (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => rfl)

/-- An M×K matrix times a K×N matrix into the zero accumulator, at entry `(p, n)`: `∑ k, l (p, k) * r (k, n)`. -/
theorem matmul_plain_zero_apply {M K N : ℕ} {φ₁ φ₂ : FTy} (prec : Option ContractPrecision)
    (l : FVec Ideal ⟨2, ![M, K]⟩ φ₁) (r : FVec Ideal ⟨2, ![K, N]⟩ φ₂) (p : Fin M) (n : Fin N) :
    matmul (DotDims.plain M K N) prec l r (constant (F := Ideal) ⟨2, ![M, N]⟩ .f32 0x00000000#32) (ix2 p n)
      = ∑ k : Fin K, l (ix2 p k) * r (ix2 k n) := by
  show FloatOps.matmul _ _ _ _ _ _ = _
  rw [Ideal.matmul_constant_zero_apply, ← Equiv.sum_comp (contrEquiv1 (DotDims.plain M K N) K rfl rfl).symm]
  refine Finset.sum_congr rfl fun k _ => ?_
  rw [plain_lhsIdx, plain_rhsIdx]

/-- The same for any dimension-numbers record `D` that is the plain one (a printed program names its own record). -/
theorem matmul_eq_plain_zero_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    matmul D prec l r (constant (F := Ideal) ⟨2, ![M, N]⟩ .f32 0x00000000#32) (ix2 p n)
      = ∑ k : Fin K, l (ix2 p k) * r (ix2 k n) := by
  subst hD; exact matmul_plain_zero_apply prec l r p n

end Cert.LibPlainMatmul
-- ==== Proof.LibHostPlainDot.lean ====
/-
  A host matrix product, read at one entry, over the extended reals.

  For any extents M, K, N: the host's `dot_general` of an M×K matrix and a K×N matrix with the plain dimension numbers
  (the left operand's axis 1 contracted with the right operand's axis 0, no batch axes) is, at entry (p, n), the sum
  over k of left(p, k) · right(k, n) — the same sum a matrix product into a zero accumulator gives. Stated for any
  dimension-numbers record equal to the plain one, since a printed program names its own record.
-/
import proofs.«166167_j56367150792892_2_alg».proof.Proof.LibPlainMatmul
import Idealize.ShloMosaic.Lib.ValueIdx
import Idealize.ShloMosaic.PureOps.Ideal.Laws

namespace Cert.LibHostPlainDot

open Idealize.ShloMosaic Idealize.ShloMosaic.ValueIdx Cert.LibPlainMatmul

/-- A host product with the plain dimension numbers, at entry `(p, n)`: `∑ k, l (p, k) * r (k, n)`. -/
theorem dotGeneral_plain_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    Host.dotGeneral (F := Ideal) D prec l r (ix2 p n) = ∑ k : Fin K, l (ix2 p k) * r (ix2 k n) := by
  subst hD
  show FloatOps.dotGeneral _ _ _ _ _ _ = _
  rw [Ideal.dotGeneral_apply, ← Equiv.sum_comp (contrEquiv1 (DotDims.plain M K N) K rfl rfl).symm]
  refine Finset.sum_congr rfl fun k _ => ?_
  rw [plain_lhsIdx, plain_rhsIdx]

end Cert.LibHostPlainDot
-- ==== Proof.LibRelayout.lean ====
/-
  Re-laid arrays read at an index given by coordinates, for any extents: the shape casts and broadcasts that a
  projection of a [1, a, 1, b] or [1, 1, a, b] block to a matrix, a sum of an [a, 1, c] and a [1, b, c] array
  over [a, b, c], and the flattening of [a, b, c] to [a * b, c] (and back) go through.

  • `shapeCast_1a1b_ab_apply`, `shapeCast_11ab_ab_apply`: a block with unit axes cast to the matrix of its two
    real axes reads, at (i, j), the operand at (0, i, 0, j), respectively (0, 0, i, j).
  • `shapeCast_ab_a1b_apply`: a matrix cast to [a, 1, b] reads, at (i, z, j), the operand at (i, j).
  • `broadcastTo_a1c_abc_apply`, `broadcastTo_1bc_abc_apply`: an array with a unit middle (leading) axis broadcast
    along it reads, at (i, k, j), the operand at (i, 0, j), respectively (0, k, j).
  • `shapeCast_abc_nc_apply`, `shapeCast_nc_abc_apply`: [a, b, c] flattened to [n, c] with n = a * b, and back:
    row r = i * b + k of the flat array is row (i, k) of the other.
  Each is the library's general lemma for the operation with the row-major, or per-axis, arithmetic done.
-/
import Idealize.ShloMosaic.Lib.ValueLayout

namespace Cert.LibRelayout

open Idealize.ShloMosaic Idealize.ShloMosaic.ValueIdx

variable {α : Type}

/-- A `[1, a, 1, b]` array cast to `[a, b]` reads, at `(i, j)`, the operand at `(0, i, 0, j)`. -/
theorem shapeCast_1a1b_ab_apply {a b : ℕ} (x : (⟨4, ![1, a, 1, b]⟩ : Shape).Idx → α)
    (h : (⟨4, ![1, a, 1, b]⟩ : Shape).ShapeCasts ⟨2, ![a, b]⟩) (i : Fin a) (j : Fin b) :
    shapeCast ⟨2, ![a, b]⟩ x h (ix2 i j) = x (ix4 (0 : Fin 1) i (0 : Fin 1) j) :=
  shapeCast_apply x h _ _ (by
    rw [Shape.rowMajor_val_four, Shape.rowMajor_val_two]
    show ((0 * a + i.val) * 1 + 0) * b + j.val = i.val * b + j.val
    simp only [Nat.zero_mul, Nat.zero_add, Nat.mul_one, Nat.add_zero])

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.mul_one, Nat.add_zero])

/-- An `[a, b]` array cast to `[a, 1, b]` reads, at `(i, z, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (z : Fin 1) (j : Fin b) :
    shapeCast ⟨3, ![a, 1, b]⟩ x h (ix3 i z j) = x (ix2 i j) :=
  shapeCast_apply x h _ _ (by
    have hz : z.val = 0 := by omega
    rw [Shape.rowMajor_val_three, Shape.rowMajor_val_two]
    show i.val * b + j.val = (i.val * 1 + z.val) * b + j.val
    rw [hz, Nat.mul_one, Nat.add_zero])

/-- An `[a, 1, c]` array broadcast to `[a, b, c]` reads, at `(i, k, j)`, the operand at `(i, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(i, k, j)`, the operand at `(0, k, j)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (k : Fin b) (j : Fin c) :
    broadcastTo ⟨3, ![a, b, c]⟩ v h (ix3 i k j) = v (ix3 (0 : Fin 1) k j) := by
  refine broadcastTo_apply v h (ix3 i k j) (ix3 (0 : Fin 1) k j) fun ax => ?_
  match ax with
  | ⟨0, _⟩ => rfl
  | ⟨1, _⟩ =>
    show k.val = if b = 1 then 0 else k.val
    split
    · have := k.isLt; omega
    · rfl
  | ⟨2, _⟩ =>
    show j.val = if c = 1 then 0 else j.val
    split
    · have := j.isLt; omega
    · rfl

/-- An `[a, b, c]` array flattened to `[n, c]` (so `n = a * b`) reads, at row `r = i * b + k` and column `j`, the
    operand at `(i, k, j)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (k : Fin b) (j : Fin c) (r : Fin n)
    (hr : r.val = i.val * b + k.val) : shapeCast ⟨2, ![n, c]⟩ x h (ix2 r j) = x (ix3 i k j) :=
  shapeCast_apply x h _ _ (by
    rw [Shape.rowMajor_val_three, Shape.rowMajor_val_two]
    show (i.val * b + k.val) * c + j.val = r.val * c + j.val
    rw [hr])

/-- An `[n, c]` array cast to `[a, b, c]` (so `n = a * b`) reads, at `(i, k, j)`, the operand at row
    `r = i * b + k` and column `j`. -/
theorem shapeCast_nc_abc_apply {a b c n : ℕ} (x : (⟨2, ![n, c]⟩ : Shape).Idx → α)
    (h : (⟨2, ![n, c]⟩ : Shape).ShapeCasts ⟨3, ![a, b, c]⟩) (i : Fin a) (k : Fin b) (j : Fin c) (r : Fin n)
    (hr : r.val = i.val * b + k.val) : shapeCast ⟨3, ![a, b, c]⟩ x h (ix3 i k j) = x (ix2 r j) :=
  shapeCast_apply x h _ _ (by
    rw [Shape.rowMajor_val_two, Shape.rowMajor_val_three]
    show r.val * c + j.val = (i.val * b + k.val) * c + j.val
    rw [hr])

end Cert.LibRelayout
-- ==== Proof.KPrefix.lean ====
/-
  What the kernel's nine operand arrays hold when the grid starts, entry by entry over the extended reals.

  The lines before the grid compute: the scaled cosine and sine of the phases; the two per-antenna weight arrays with
  their last two axes exchanged and then flattened to 4096 = 256·16 rows (row `16·b + m` is sample `b`, antenna `m`);
  the two layers unchanged (a change of float format is the identity here); the first bias as one row; the shared
  segment's product `q(m, h) = ∑ₖ vM(k, m) · W1(4096 + k, h)`; and the second bias times sixteen as one row.
-/
import proofs.«166167_j56367150792892_2_alg».proof.Proof.Gen.KernelIdeal.Frame.Runs
import proofs.«166167_j56367150792892_2_alg».proof.Proof.LibPlainMatmul
import proofs.«166167_j56367150792892_2_alg».proof.Proof.LibHostPlainDot
import proofs.«166167_j56367150792892_2_alg».proof.Proof.LibRelayout
import proofs.«166167_j56367150792892_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KPrefix

open Cert.KernelIdeal Cert.KernelIdeal.Gen Cert.KernelIdeal.Facts₀ Idealize.ShloMosaic Idealize.ShloMosaic.TcCoe
open Idealize.SL.Sem Idealize.ShloMosaic.ValueIdx Idealize.ShloMosaic.StableHlo
open Cert.LibPlainMatmul Cert.LibRelayout Cert.LibHostPlainDot

theorem dims_q : dot_S16x512_S512x4096_S16x4096_1_0_0_1_n_n = DotDims.plain 16 512 4096 := rfl

variable (m : (ℓ : Loc nD τ sig) → Buf (Elt Ideal) ℓ) (c : Dev nD)

/-- The eight argument arrays as launched. -/
abbrev a0 : FVec Ideal S256x1024 .f32 := m ((c : Thread nD τ).loc main_arg0)
abbrev a1 : FVec Ideal S256x1024x16 .f32 := m ((c : Thread nD τ).loc main_arg1)
abbrev a2 : FVec Ideal S256x1024x16 .f32 := m ((c : Thread nD τ).loc main_arg2)
abbrev a3 : FVec Ideal S512x16 .f32 := m ((c : Thread nD τ).loc main_arg3)
abbrev a4 : FVec Ideal S4608x4096 .f32 := m ((c : Thread nD τ).loc main_arg4)
abbrev a5 : FVec Ideal S4096 .f32 := m ((c : Thread nD τ).loc main_arg5)
abbrev a6 : FVec Ideal S4096x1024 .f32 := m ((c : Thread nD τ).loc main_arg6)
abbrev a7 : FVec Ideal S1024 .f32 := m ((c : Thread nD τ).loc main_arg7)

/-- The eight argument arrays as one record. -/
abbrev args : Cert.Spec.Args := ⟨a0 m c, a1 m c, a2 m c, a3 m c, a4 m c, a5 m c, a6 m c, a7 m c⟩

/-- Operand 0: the scaled cosine. -/
theorem v3_apply (b : Fin 256) (l : Fin 1024) :
    (V m c main_v3 : FVec Ideal S256x1024 .bf16) (ix2 b l)
      = Ideal.ofBits .f32 0x3D000000#32 * Ideal.cos (a0 m c (ix2 b l)) := by
  show StableHlo.after hostOps0 (fun b => m (c, b)) (Proc.devRef .tc main_v3) (ix2 b l) = _
  after_results
  rfl

/-- Operand 1: the scaled sine. -/
theorem v7_apply (b : Fin 256) (l : Fin 1024) :
    (V m c main_v7 : FVec Ideal S256x1024 .bf16) (ix2 b l)
      = Ideal.ofBits .f32 0x3D000000#32 * Ideal.sin (a0 m c (ix2 b l)) := by
  show StableHlo.after hostOps0 (fun b => m (c, b)) (Proc.devRef .tc main_v7) (ix2 b l) = _
  after_results
  rfl

/-- Operand 2: row `16·b + q` of the flattened array is sample `b`, antenna `q` of the first weight array. -/
theorem v10_apply (b : Fin 256) (q : Fin 16) (k : Fin 1024) (r : Fin 4096) (hr : r.val = b.val * 16 + q.val) :
    (V m c main_v10 : FVec Ideal S4096x1024 .bf16) (ix2 r k) = a1 m c (ix3 b k q) := by
  show StableHlo.after hostOps0 (fun b => m (c, b)) (Proc.devRef .tc main_v10) (ix2 r k) = _
  after_results
  refine (shapeCast_abc_nc_apply _ _ b q k r hr).trans ?_
  exact (transpose_ix3_021_apply _ _ b q k).trans rfl

/-- Operand 3: the same of the second weight array. -/
theorem v13_apply (b : Fin 256) (q : Fin 16) (k : Fin 1024) (r : Fin 4096) (hr : r.val = b.val * 16 + q.val) :
    (V m c main_v13 : FVec Ideal S4096x1024 .bf16) (ix2 r k) = a2 m c (ix3 b k q) := by
  show StableHlo.after hostOps0 (fun b => m (c, b)) (Proc.devRef .tc main_v13) (ix2 r k) = _
  after_results
  refine (shapeCast_abc_nc_apply _ _ b q k r hr).trans ?_
  exact (transpose_ix3_021_apply _ _ b q k).trans rfl

/-- Operands 4 and 5: the two layers, unchanged. -/
theorem v14_apply (i : S4608x4096.Idx) : (V m c main_v14 : FVec Ideal S4608x4096 .bf16) i = a4 m c i := by
  show StableHlo.after hostOps0 (fun b => m (c, b)) (Proc.devRef .tc main_v14) i = _
  after_results
  rfl

theorem v15_apply (i : S4096x1024.Idx) : (V m c main_v15 : FVec Ideal S4096x1024 .bf16) i = a6 m c i := by
  show StableHlo.after hostOps0 (fun b => m (c, b)) (Proc.devRef .tc main_v15) i = _
  after_results
  rfl

/-- Operand 6: the first bias as one row. -/
theorem v16_apply (u : Fin 1) (h : Fin 4096) : (V m c main_v16 : FVec Ideal S1x4096 .f32) (ix2 u h) = a5 m c (ix1 h) := by
  show StableHlo.after hostOps0 (fun b => m (c, b)) (Proc.devRef .tc main_v16) (ix2 u h) = _
  after_results
  exact shapeCast_a_1a_apply _ _ u h

/-- Operand 8: the second bias times sixteen, as one row. -/
theorem v19_apply (u : Fin 1) (l : Fin 1024) :
    (V m c main_v19 : FVec Ideal S1x1024 .f32) (ix2 u l) = a7 m c (ix1 l) * Ideal.ofBits .f32 0x41800000#32 := by
  show StableHlo.after hostOps0 (fun b => m (c, b)) (Proc.devRef .tc main_v19) (ix2 u l) = _
  after_results
  exact (shapeCast_a_1a_apply _ _ u l).trans rfl

/-- Operand 7: the shared segment's product, antenna `q`, hidden column `h`. -/
theorem v24_apply (q : Fin 16) (h : Fin 4096) :
    (V m c main_v24 : FVec Ideal S16x4096 .bf16) (ix2 q h)
      = ∑ k : Fin 512, a3 m c (ix2 k q) * a4 m c (ix2 (Cert.Spec.row 4096 k) h) := by
  show StableHlo.after hostOps0 (fun b => m (c, b)) (Proc.devRef .tc main_v24) (ix2 q h) = _
  after_results
  refine Eq.trans (truncf_apply (ψ := FTy.bf16) _ Gen.bitsLt_bf16_f32 (ix2 q h)) ?_
  refine Eq.trans (dotGeneral_plain_apply (φ₁ := FTy.bf16) (φ₂ := FTy.bf16) _ dims_q none _ _ q h) ?_
  show (_ : EReal) = _
  refine Finset.sum_congr rfl fun k _ => ?_
  refine congrArg₂ (· * ·) ((transpose_ix2_apply _ _ q k).trans rfl) ?_
  refine (slice2_axis0_apply 4096 _ _ k h (Cert.Spec.row 4096 k) ?_).trans rfl
  show (4096 + k.val) % 4608 = 4096 + k.val
  have := k.isLt
  omega

end Cert.KPrefix

end
-- ==== Proof.KPay.lean ====
/-
  The kernel body's arithmetic, read entry by entry over the extended reals.

  At one grid point the body holds a block of 32 samples and one tile of 512 hidden columns. Its six pure values are:
  the per-antenna part of the pre-activation (two products of the 512 = 32·16 flattened (sample, antenna) rows with
  two row bands of the first layer, re-split into (sample, antenna)); the phase part (two products of the 32 sample
  rows with two other bands, repeated over the antennas); the shared part (one row per antenna, repeated over the
  samples); the accumulator's update (the three parts and the bias added, clipped at zero, summed over the sixteen
  antennas, multiplied by the tile's 512 rows of the second layer and added to what the accumulator held); the zero
  fill; and the final value (the accumulator plus the sixteen-fold second bias, one row repeated over the samples).
-/
import proofs.«166167_j56367150792892_2_alg».proof.Proof.Gen.KernelIdeal.Skeleton
import proofs.«166167_j56367150792892_2_alg».proof.Proof.LibPlainMatmul
import proofs.«166167_j56367150792892_2_alg».proof.Proof.LibRelayout
import Idealize.ShloMosaic.Lib.Pipeline.Value
import Idealize.ShloMosaic.Lib.ValueIdx
import Idealize.ShloMosaic.Lib.ValueLayout
import Idealize.ShloMosaic.PureOps.Ideal.Laws

noncomputable section

namespace Cert.KPay

open Cert.KernelIdeal Cert.KernelIdeal.Gen Idealize.ShloMosaic Idealize.ShloMosaic.ValueIdx
open Cert.LibPlainMatmul Cert.LibRelayout

/-- The three products' dimension numbers are the plain ones: rows × contraction times contraction × columns. -/
theorem dims_u : dot_S32x1024_S1024x512_S32x512_1_0_0_1_n_n = DotDims.plain 32 1024 512 := rfl
theorem dims_p : dot_S512x1024_S1024x512_S512x512_1_0_0_1_n_n = DotDims.plain 512 1024 512 := rfl
theorem dims_w : dot_S32x512_S512x1024_S32x1024_1_0_0_1_n_n = DotDims.plain 32 512 1024 := rfl

/-- The shared part: antenna `m`'s row, whatever the sample. -/
theorem pay6_apply (v29 : FVec Ideal S16x512 .bf16) (u : Fin 1) (m : Fin 16) (j : Fin 512) :
    k0_pay6 (F := Ideal) v29 (ix3 u m j) = v29 (ix2 m j) := by
  unfold k0_pay6
  refine (shapeCast_ab_1ab_apply _ _ u m j).trans ?_
  rw [shapeCast_self]
  rfl

/-- The phase part at sample `b`, column `j`: the two phase rows against two 1024-row bands; no antenna in it. -/
theorem pay5_apply (v3 : FVec Ideal S32x1024 .bf16) (v5 : FVec Ideal S1024x512 .bf16) (v8 : FVec Ideal S32x1024 .bf16)
    (v10 : FVec Ideal S1024x512 .bf16) (b : Fin 32) (m : Fin 16) (j : Fin 512) :
    k0_pay5 (F := Ideal) v3 v5 v8 v10 (ix3 b m j)
      = (∑ l : Fin 1024, v3 (ix2 b l) * v5 (ix2 l j)) + ∑ l : Fin 1024, v8 (ix2 b l) * v10 (ix2 l j) := by
  unfold k0_pay5
  refine (broadcastTo_a1c_abc_apply _ _ b m j).trans ?_
  rw [shapeCast_self]
  refine (shapeCast_ab_a1b_apply _ _ b (0 : Fin 1) j).trans ?_
  rw [shapeCast_self, shapeCast_self, shapeCast_self, shapeCast_self]
  refine (addf_apply _ _ _).trans ?_
  exact congrArg₂ (· + ·) (matmul_eq_plain_zero_apply _ dims_u none v3 v5 b j)
    (matmul_eq_plain_zero_apply _ dims_u none v8 v10 b j)

/-- The per-antenna part at sample `b`, antenna `m`, column `j`: flattened row `16·b + m` against two bands. -/
theorem pay4_apply (v14 : FVec Ideal S512x1024 .bf16) (v16 : FVec Ideal S1024x512 .bf16) (v19 : FVec Ideal S512x1024 .bf16)
    (v21 : FVec Ideal S1024x512 .bf16) (b : Fin 32) (m : Fin 16) (j : Fin 512) (r : Fin 512) (hr : r.val = b.val * 16 + m.val) :
    k0_pay4 (F := Ideal) v14 v16 v19 v21 (ix3 b m j)
      = (∑ k : Fin 1024, v14 (ix2 r k) * v16 (ix2 k j)) + ∑ k : Fin 1024, v19 (ix2 r k) * v21 (ix2 k j) := by
  unfold k0_pay4
  refine (shapeCast_nc_abc_apply _ _ b m j r hr).trans ?_
  rw [shapeCast_self, shapeCast_self, shapeCast_self, shapeCast_self]
  refine (addf_apply _ _ _).trans ?_
  exact congrArg₂ (· + ·) (matmul_eq_plain_zero_apply _ dims_p none v14 v16 r j)
    (matmul_eq_plain_zero_apply _ dims_p none v19 v21 r j)

/-- The index the sum over the antennas visits: `(b, k, j)`. -/
theorem lift_mid (b : Fin 32) (j : Fin 512) (k : Fin 16) :
    Gen.reduces_S32x16x512_S32x512.lift (ix2 b j) k = ix3 b k j := by
  funext c
  apply Fin.ext
  match c with
  | ⟨0, _⟩ => rfl
  | ⟨1, _⟩ => rfl
  | ⟨2, _⟩ => rfl

/-- A `[1, 1, c]` array repeated over `[a, b, c]` reads, at `(i, k, j)`, the operand at `(0, 0, j)`. -/
theorem broadcastTo_11c_abc_apply {α : Type} {a b c : ℕ} (v : (⟨3, ![1, 1, c]⟩ : Shape).Idx → α)
    (h : (⟨3, ![1, 1, c]⟩ : Shape).Broadcasts ⟨3, ![a, b, c]⟩) (i : Fin a) (k : Fin b) (j : Fin c) :
    broadcastTo ⟨3, ![a, b, c]⟩ v h (ix3 i k j) = v (ix3 (0 : Fin 1) (0 : Fin 1) j) := by
  refine broadcastTo_apply v h (ix3 i k j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-- The clipped pre-activation summed over the antennas, at sample `b` and column `j`. -/
def hsum (v25 v28 : FVec Ideal S32x16x512 .f32) (v32 : FVec Ideal S1x16x512 .f32) (v35 : FVec Ideal S1x512 .f32)
    (b : Fin 32) (j : Fin 512) : EReal :=
  ∑ m : Fin 16, max (v25 (ix3 b m j) + v28 (ix3 b m j) + v32 (ix3 (0 : Fin 1) m j) + v35 (ix2 (0 : Fin 1) j))
    (Ideal.ofBits .f32 0x00000000#32)

/-- The accumulator's update at sample `b`, output column `l`. -/
theorem pay1_apply (v25 v28 : FVec Ideal S32x16x512 .f32) (v32 : FVec Ideal S1x16x512 .f32) (v35 : FVec Ideal S1x512 .f32)
    (v47 : FVec Ideal S32x1024 .f32) (v48 : FVec Ideal S512x1024 .bf16) (b : Fin 32) (l : Fin 1024) :
    k0_pay1 (F := Ideal) v25 v28 v32 v35 v47 v48 (ix2 b l)
      = v47 (ix2 b l) + ∑ j : Fin 512, hsum v25 v28 v32 v35 b j * v48 (ix2 j l) := by
  unfold k0_pay1
  rw [shapeCast_self, shapeCast_self, shapeCast_self, shapeCast_self, shapeCast_self]
  refine (addf_apply _ _ _).trans ?_
  refine congrArg (v47 (ix2 b l) + ·) ?_
  refine (matmul_eq_plain_zero_apply _ dims_w none _ v48 b l).trans ?_
  refine Finset.sum_congr rfl fun j _ => ?_
  refine congrArg (· * v48 (ix2 j l)) ?_
  refine Eq.trans (truncf_apply (ψ := FTy.bf16) _ Gen.bitsLt_bf16_f32 (ix2 b j)) ?_
  refine Eq.trans (Ideal.multiReduction_add_single _ _ Gen.reduces_S32x16x512_S32x512 _ _ (ix2 b j)) ?_
  unfold hsum
  refine Finset.sum_congr rfl fun (m : Fin 16) _ => ?_
  refine Eq.trans (congrArg _ (lift_mid b j m)) ?_
  refine (maximumf_apply _ _ _).trans ?_
  refine congrArg₂ max ?_ rfl
  refine (addf_apply _ _ _).trans ?_
  refine congrArg₂ (· + ·) ?_ ?_
  · refine (addf_apply _ _ _).trans ?_
    refine congrArg₂ (· + ·) (addf_apply _ _ _) ?_
    exact broadcastTo_1bc_abc_apply _ _ b m j
  · refine (broadcastTo_11c_abc_apply _ _ b m j).trans ?_
    exact shapeCast_ab_1ab_apply _ _ (0 : Fin 1) (0 : Fin 1) j

/-- The zero fill. -/
theorem pay3_apply (i : S32x1024.Idx) : k0_pay3 (F := Ideal) i = Ideal.ofBits .f32 0x00000000#32 := by
  unfold k0_pay3
  rw [shapeCast_self]
  rfl

/-- The final value at sample `b`, column `l`: the accumulator plus the bias row. -/
theorem pay2_apply (v58 : FVec Ideal S32x1024 .f32) (v59 : FVec Ideal S1x1024 .f32) (b : Fin 32) (l : Fin 1024) :
    k0_pay2 (F := Ideal) v58 v59 (ix2 b l) = v58 (ix2 b l) + v59 (ix2 (0 : Fin 1) l) := by
  unfold k0_pay2
  rw [shapeCast_self]
  refine (addf_apply _ _ _).trans ?_
  exact congrArg (v58 (ix2 b l) + ·) (broadcastTo_1b_ab_apply _ _ b l)

end Cert.KPay

end
-- ==== Proof.KPieces.lean ====
/-
  What one run of the body leaves behind, case by case, for any float instance.

  Whatever the grid point, the body ends with the accumulator at `step`: the update payload over the point's blocks
  (the first layer's block cut into its four bands of 1024 rows) and what the accumulator held before — the zero fill at
  the first point of a row of points, the previous point's contents otherwise. At the last point of a row the output's
  buffer is left at the accumulator plus the bias row.
-/
import proofs.«166167_j56367150792892_2_alg».proof.Proof.Gen.KernelIdeal.Frame
import Idealize.ShloMosaic.Lib.Pipeline.Value
import Idealize.ShloMosaic.Lib.Tactic

set_option maxRecDepth 16384

noncomputable section

namespace Cert.KPieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- Band `off … off + 1023` of the first layer's block. -/
abbrev band (x4 : Vec F S4608x512 .bf16) (off : Nat) (h : ∀ a, (![off, 0] : Fin 2 → Nat) a + S1024x512.size a ≤ S4608x512.size a) :
    Vec F S1024x512 .bf16 :=
  View.ld x4 (Rect.unit ![off, 0] ![1024, 512] h)

/-- The accumulator after the body, from the point's blocks and the accumulator before. -/
def step (x0 x1 : Vec F S32x1024 .bf16) (x2 x3 : Vec F S512x1024 .bf16) (x4 : Vec F S4608x512 .bf16) (x5 : Vec F S512x1024 .bf16)
    (x6 : Vec F S1x512 .f32) (x7 : Vec F S16x512 .bf16) (acc : Vec F S32x1024 .f32) : Vec F S32x1024 .f32 :=
  k0_pay1 (k0_pay4 x2 (band x4 2048 Gen.inb_S4608x512_S1024x512_2048_0) x3 (band x4 3072 Gen.inb_S4608x512_S1024x512_3072_0))
    (k0_pay5 x0 (band x4 0 Gen.inb_S4608x512_S1024x512_0_0) x1 (band x4 1024 Gen.inb_S4608x512_S1024x512_1024_0))
    (k0_pay6 x7) x6 acc x5

/-- A middle point: the accumulator steps from what the point before left. -/
theorem sout_B (c : Dev nD) (i : grid0.Coords) (arg2 : Memref sig .tc .vmem S32x1024 .bf16) (harg2 : arg2.IsWhole) (arg3 : Memref sig .tc .vmem S32x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S4608x512 .bf16) (harg6 : arg6.IsWhole) (arg7 : Memref sig .tc .vmem S512x1024 .bf16) (harg7 : arg7.IsWhole) (arg8 : Memref sig .tc .vmem S1x512 .f32) (harg8 : arg8.IsWhole) (arg9 : Memref sig .tc .vmem S16x512 .bf16) (harg9 : arg9.IsWhole) (arg10 : Memref sig .tc .vmem S1x1024 .f32) (harg10 : arg10.IsWhole) (arg11 : Memref sig .tc .vmem S32x1024 .f32) (harg11 : arg11.IsWhole) (arg12 : Memref sig .tc .vmem S32x1024 .f32) (harg12 : arg12.IsWhole) (hc0 : ¬cond0_0 i) (hc1 : ¬cond0_1 i) (x0 : Vec F S32x1024 .bf16) (x1 : Vec F S32x1024 .bf16) (x2 : Vec F S512x1024 .bf16) (x3 : Vec F S512x1024 .bf16) (x4 : Vec F S4608x512 .bf16) (x5 : Vec F S512x1024 .bf16) (x6 : Vec F S1x512 .f32) (x7 : Vec F S16x512 .bf16) (x8 : Vec F S1x1024 .f32) (xs0 : Vec F S32x1024 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = step x0 x1 x2 x3 x4 x5 x6 x7 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S32x1024) hz, View.ld_unit_zero (S := S512x1024) hz, View.ld_unit_zero (S := S16x512) hz, View.ld_unit_zero (S := S1x512) hz, View.ld_unit_zero (S := S1x1024) hz]
  rfl

/-- The first point of a row of points: the accumulator steps from the zero fill. -/
theorem sout_A (c : Dev nD) (i : grid0.Coords) (arg2 : Memref sig .tc .vmem S32x1024 .bf16) (harg2 : arg2.IsWhole) (arg3 : Memref sig .tc .vmem S32x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S4608x512 .bf16) (harg6 : arg6.IsWhole) (arg7 : Memref sig .tc .vmem S512x1024 .bf16) (harg7 : arg7.IsWhole) (arg8 : Memref sig .tc .vmem S1x512 .f32) (harg8 : arg8.IsWhole) (arg9 : Memref sig .tc .vmem S16x512 .bf16) (harg9 : arg9.IsWhole) (arg10 : Memref sig .tc .vmem S1x1024 .f32) (harg10 : arg10.IsWhole) (arg11 : Memref sig .tc .vmem S32x1024 .f32) (harg11 : arg11.IsWhole) (arg12 : Memref sig .tc .vmem S32x1024 .f32) (harg12 : arg12.IsWhole) (hc0 : cond0_0 i) (hc1 : ¬cond0_1 i) (x0 : Vec F S32x1024 .bf16) (x1 : Vec F S32x1024 .bf16) (x2 : Vec F S512x1024 .bf16) (x3 : Vec F S512x1024 .bf16) (x4 : Vec F S4608x512 .bf16) (x5 : Vec F S512x1024 .bf16) (x6 : Vec F S1x512 .f32) (x7 : Vec F S16x512 .bf16) (x8 : Vec F S1x1024 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 = step x0 x1 x2 x3 x4 x5 x6 x7 k0_pay3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8)]
  unfold kernelRun0_A
  dsimp only
  sl_unfold_words
  rw [View.canon_cons_unit_zero (S := S32x1024) hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S32x1024) hz, View.ld_unit_zero (S := S512x1024) hz, View.ld_unit_zero (S := S16x512) hz, View.ld_unit_zero (S := S1x512) hz, View.ld_unit_zero (S := S1x1024) hz]
  rw [View.readCov_unit_zero (S := S32x1024) _ hz]
  rfl

/-- The last point of a row: the accumulator steps as at a middle point, -/
theorem sout_C (c : Dev nD) (i : grid0.Coords) (arg2 : Memref sig .tc .vmem S32x1024 .bf16) (harg2 : arg2.IsWhole) (arg3 : Memref sig .tc .vmem S32x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S4608x512 .bf16) (harg6 : arg6.IsWhole) (arg7 : Memref sig .tc .vmem S512x1024 .bf16) (harg7 : arg7.IsWhole) (arg8 : Memref sig .tc .vmem S1x512 .f32) (harg8 : arg8.IsWhole) (arg9 : Memref sig .tc .vmem S16x512 .bf16) (harg9 : arg9.IsWhole) (arg10 : Memref sig .tc .vmem S1x1024 .f32) (harg10 : arg10.IsWhole) (arg11 : Memref sig .tc .vmem S32x1024 .f32) (harg11 : arg11.IsWhole) (arg12 : Memref sig .tc .vmem S32x1024 .f32) (harg12 : arg12.IsWhole) (hc0 : ¬cond0_0 i) (hc1 : cond0_1 i) (x0 : Vec F S32x1024 .bf16) (x1 : Vec F S32x1024 .bf16) (x2 : Vec F S512x1024 .bf16) (x3 : Vec F S512x1024 .bf16) (x4 : Vec F S4608x512 .bf16) (x5 : Vec F S512x1024 .bf16) (x6 : Vec F S1x512 .f32) (x7 : Vec F S16x512 .bf16) (x8 : Vec F S1x1024 .f32) (xs0 : Vec F S32x1024 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = step x0 x1 x2 x3 x4 x5 x6 x7 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S32x1024) hz, View.ld_unit_zero (S := S512x1024) hz, View.ld_unit_zero (S := S16x512) hz, View.ld_unit_zero (S := S1x512) hz, View.ld_unit_zero (S := S1x1024) hz]
  rfl

/-- and the output's buffer is left at the stepped accumulator plus the bias row. -/
theorem out_C (c : Dev nD) (i : grid0.Coords) (arg2 : Memref sig .tc .vmem S32x1024 .bf16) (harg2 : arg2.IsWhole) (arg3 : Memref sig .tc .vmem S32x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S4608x512 .bf16) (harg6 : arg6.IsWhole) (arg7 : Memref sig .tc .vmem S512x1024 .bf16) (harg7 : arg7.IsWhole) (arg8 : Memref sig .tc .vmem S1x512 .f32) (harg8 : arg8.IsWhole) (arg9 : Memref sig .tc .vmem S16x512 .bf16) (harg9 : arg9.IsWhole) (arg10 : Memref sig .tc .vmem S1x1024 .f32) (harg10 : arg10.IsWhole) (arg11 : Memref sig .tc .vmem S32x1024 .f32) (harg11 : arg11.IsWhole) (arg12 : Memref sig .tc .vmem S32x1024 .f32) (harg12 : arg12.IsWhole) (hc0 : ¬cond0_0 i) (hc1 : cond0_1 i) (x0 : Vec F S32x1024 .bf16) (x1 : Vec F S32x1024 .bf16) (x2 : Vec F S512x1024 .bf16) (x3 : Vec F S512x1024 .bf16) (x4 : Vec F S4608x512 .bf16) (x5 : Vec F S512x1024 .bf16) (x6 : Vec F S1x512 .f32) (x7 : Vec F S16x512 .bf16) (x8 : Vec F S1x1024 .f32) (xs0 : Vec F S32x1024 .f32) :
    out0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = k0_pay2 (step x0 x1 x2 x3 x4 x5 x6 x7 xs0) x8 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S32x1024) hz, View.ld_unit_zero (S := S512x1024) hz, View.ld_unit_zero (S := S16x512) hz, View.ld_unit_zero (S := S1x512) hz, View.ld_unit_zero (S := S1x1024) hz]
  rw [View.readCov_unit_zero (S := S32x1024) _ hz]
  rfl

end Cert.KPieces

end
-- ==== Proof.KTile.lean ====
/-
  One step of the accumulator is one tile of the second product.

  If, at a grid point of hidden tile `tile`, the blocks hold what the arrays hold there — the scaled cosine and sine of
  sample `b`, the two weight arrays' rows of sample `b` and each antenna, the first layer's columns and the second
  layer's rows `512·tile + j`, the first bias and the shared product at those columns — then the body adds to the
  accumulator's entry (sample `b`, column `l`) exactly `tileK … b tile l`: the clipped pre-activation, summed over the
  antennas, times the tile's rows of the second layer.
-/
import proofs.«166167_j56367150792892_2_alg».proof.Proof.KPay
import proofs.«166167_j56367150792892_2_alg».proof.Proof.KPieces
import proofs.«166167_j56367150792892_2_alg».proof.Proof.Spec

noncomputable section

namespace Cert.KTile

open Cert.KernelIdeal Cert.KernelIdeal.Gen Idealize.ShloMosaic Idealize.ShloMosaic.ValueIdx
open Cert.Spec (Args)

/-- The scale as the kernel's program spells it. -/
abbrev magK : EReal := Ideal.ofBits .f32 0x3D000000#32

/-- A band of the first layer's block, read at `(k, j)`: row `off + k` of the block. -/
theorem band_apply (x4 : Vec Ideal S4608x512 .bf16) (off : Nat)
    (h : ∀ a, (![off, 0] : Fin 2 → Nat) a + S1024x512.size a ≤ S4608x512.size a) (k : Fin 1024) (j : Fin 512)
    (d : Fin 4608) (hd : d.val = off + k.val) :
    Cert.KPieces.band x4 off h (ix2 k j) = x4 (ix2 d j) := by
  show x4 _ = x4 _
  congr 1
  funext a
  apply Fin.ext
  match a with
  | ⟨0, _⟩ => show off + 1 * k.val = d.val; rw [hd]; omega
  | ⟨1, _⟩ => show 0 + 1 * j.val = j.val; omega

theorem row_val (off : Nat) (k : Fin 1024) (h : off + 1024 ≤ 4608) : (Cert.Spec.row off k).val = off + k.val := by
  show (off + k.val) % 4608 = off + k.val
  have := k.isLt
  omega

/-- The step over blocks that hold the arrays' entries of sample `b` and tile `tile`. -/
theorem step_apply_of (x0 x1 : Vec Ideal S32x1024 .bf16) (x2 x3 : Vec Ideal S512x1024 .bf16) (x4 : Vec Ideal S4608x512 .bf16)
    (x5 : Vec Ideal S512x1024 .bf16) (x6 : Vec Ideal S1x512 .f32) (x7 : Vec Ideal S16x512 .bf16) (acc : Vec Ideal S32x1024 .f32)
    (a : Args) (tile : Nat) (y : Fin 32) (b : Fin 256) (l : Fin 1024)
    (h0 : ∀ l' : Fin 1024, x0 (ix2 y l') = Cert.Spec.sr magK a b l')
    (h1 : ∀ l' : Fin 1024, x1 (ix2 y l') = Cert.Spec.si magK a b l')
    (h2 : ∀ (q : Fin 16) (r : Fin 512), r.val = y.val * 16 + q.val → ∀ k : Fin 1024, x2 (ix2 r k) = a.wr (ix3 b k q))
    (h3 : ∀ (q : Fin 16) (r : Fin 512), r.val = y.val * 16 + q.val → ∀ k : Fin 1024, x3 (ix2 r k) = a.wi (ix3 b k q))
    (h4 : ∀ (d : Fin 4608) (j : Fin 512), x4 (ix2 d j) = a.W1 (ix2 d (Cert.Spec.col tile j)))
    (h5 : ∀ (j : Fin 512) (l' : Fin 1024), x5 (ix2 j l') = a.W2 (ix2 (Cert.Spec.col tile j) l'))
    (h6 : ∀ j : Fin 512, x6 (ix2 (0 : Fin 1) j) = a.b1 (ix1 (Cert.Spec.col tile j)))
    (h7 : ∀ (q : Fin 16) (j : Fin 512), x7 (ix2 q j) = Cert.Spec.qPart a q (Cert.Spec.col tile j)) :
    Cert.KPieces.step x0 x1 x2 x3 x4 x5 x6 x7 acc (ix2 y l) = acc (ix2 y l) + Cert.Spec.tileK magK a b tile l := by
  unfold Cert.KPieces.step
  refine (Cert.KPay.pay1_apply _ _ _ x6 acc x5 y l).trans ?_
  refine congrArg (acc (ix2 y l) + ·) ?_
  unfold Cert.Spec.tileK
  refine Finset.sum_congr rfl fun j _ => ?_
  rw [h5 j l]
  refine congrArg (· * a.W2 (ix2 (Cert.Spec.col tile j) l)) ?_
  unfold Cert.KPay.hsum Cert.Spec.hsumK
  refine Finset.sum_congr rfl fun q _ => ?_
  rw [Ideal.ofBits_zero_f32]
  refine congrArg (max · 0) ?_
  unfold Cert.Spec.preK
  have hr : (⟨y.val * 16 + q.val, by have := y.isLt; have := q.isLt; omega⟩ : Fin 512).val = y.val * 16 + q.val := rfl
  refine congrArg₂ (· + ·) (congrArg₂ (· + ·) (congrArg₂ (· + ·) ?_ ?_) ?_) (h6 j)
  · -- the per-antenna part
    refine (Cert.KPay.pay4_apply x2 _ x3 _ y q j _ hr).trans ?_
    unfold Cert.Spec.pPart
    refine congrArg₂ (· + ·) (Finset.sum_congr rfl fun k _ => ?_) (Finset.sum_congr rfl fun k _ => ?_)
    · rw [h2 q _ hr k, band_apply x4 2048 _ k j (Cert.Spec.row 2048 k) (row_val 2048 k (by norm_num)), h4]
    · rw [h3 q _ hr k, band_apply x4 3072 _ k j (Cert.Spec.row 3072 k) (row_val 3072 k (by norm_num)), h4]
  · -- the phase part
    refine (Cert.KPay.pay5_apply x0 _ x1 _ y q j).trans ?_
    unfold Cert.Spec.uPart
    refine congrArg₂ (· + ·) (Finset.sum_congr rfl fun k _ => ?_) (Finset.sum_congr rfl fun k _ => ?_)
    · rw [h0 k, band_apply x4 0 _ k j (Cert.Spec.row 0 k) (row_val 0 k (by norm_num)), h4]
    · rw [h1 k, band_apply x4 1024 _ k j (Cert.Spec.row 1024 k) (row_val 1024 k (by norm_num)), h4]
  · -- the shared part
    exact (Cert.KPay.pay6_apply x7 (0 : Fin 1) q j).trans (h7 q j)

end Cert.KTile

end
-- ==== Proof.KBlocks.lean ====
/-
  A window's block at a grid point, read where it sits in its array.

  The grid has 8 × 8 points; point `t` is sample block `t / 8` (32 samples, 512 flattened (sample, antenna) rows) and
  hidden tile `t % 8` (512 columns of the first layer, 512 rows of the second). A block's entry `y` sits in the array
  at block index × block size + `y` on every axis.
-/
import proofs.«166167_j56367150792892_2_alg».proof.Proof.Gen.KernelIdeal.Frame.Runs
import Idealize.ShloMosaic.Lib.Pipeline.Value
import Idealize.ShloMosaic.Lib.ValueIdx

noncomputable section

namespace Cert.KBlocks

open Cert.KernelIdeal Cert.KernelIdeal.Gen Idealize.ShloMosaic Idealize.ShloMosaic.TcCoe
open Idealize.SL.Sem Idealize.ShloMosaic.ValueIdx

/-- The block index of every window at every point, decided once over the 64 points. -/
theorem idx_facts : ∀ t : Fin cfg0.N,
    (win0_0.index t (0 : Fin 2) = t.val / 8 ∧ win0_0.index t (1 : Fin 2) = 0)
    ∧ (win0_1.index t (0 : Fin 2) = t.val / 8 ∧ win0_1.index t (1 : Fin 2) = 0)
    ∧ (win0_2.index t (0 : Fin 2) = t.val / 8 ∧ win0_2.index t (1 : Fin 2) = 0)
    ∧ (win0_3.index t (0 : Fin 2) = t.val / 8 ∧ win0_3.index t (1 : Fin 2) = 0)
    ∧ (win0_4.index t (0 : Fin 2) = 0 ∧ win0_4.index t (1 : Fin 2) = t.val % 8)
    ∧ (win0_5.index t (0 : Fin 2) = t.val % 8 ∧ win0_5.index t (1 : Fin 2) = 0)
    ∧ (win0_6.index t (0 : Fin 2) = 0 ∧ win0_6.index t (1 : Fin 2) = t.val % 8)
    ∧ (win0_7.index t (0 : Fin 2) = 0 ∧ win0_7.index t (1 : Fin 2) = t.val % 8)
    ∧ (win0_8.index t (0 : Fin 2) = 0 ∧ win0_8.index t (1 : Fin 2) = 0)
    ∧ (win0_9.index t (0 : Fin 2) = t.val / 8 ∧ win0_9.index t (1 : Fin 2) = 0) :=
  (by decide +kernel : ∀ t : Fin grid0.N, _)

variable (m : (ℓ : Loc nD τ sig) → Buf (Elt Ideal) ℓ) (c : Dev nD)

/-- Window 0 (the scaled cosine): rows `32·(t/8) + y`. -/
theorem iblk0_apply (t : Fin cfg0.N) (y : Fin 32) (l : Fin 1024) (b : Fin 256) (hb : b.val = 32 * (t.val / 8) + y.val) :
    (iblk m c 0 t : Vec Ideal S32x1024 .bf16) (ix2 y l) = (V m c main_v3 : FVec Ideal S256x1024 .bf16) (ix2 b l) := by
  obtain ⟨⟨h0, h1⟩, -⟩ := idx_facts t
  unfold iblk
  rw [View.read_apply]
  show V m c main_v3 _ = V m c main_v3 _
  congr 1
  funext a
  apply Fin.ext
  match a with
  | ⟨0, _⟩ => show win0_0.index t 0 * 32 + 1 * y.val = b.val; rw [h0, hb]; omega
  | ⟨1, _⟩ => show win0_0.index t 1 * 1024 + 1 * l.val = l.val; rw [h1]; omega

/-- Window 1 (the scaled sine): rows `32·(t/8) + y`. -/
theorem iblk1_apply (t : Fin cfg0.N) (y : Fin 32) (z : Fin 1024) (b : Fin 256) (hb : b.val = 32 * (t.val / 8) + y.val) :
    (iblk m c 1 t : Vec Ideal S32x1024 .bf16) (ix2 y z) = (V m c main_v7 : FVec Ideal S256x1024 .bf16) (ix2 b z) := by
  obtain ⟨-, ⟨h0, h1⟩, -⟩ := idx_facts t
  unfold iblk
  rw [View.read_apply]
  show V m c main_v7 _ = V m c main_v7 _
  congr 1
  funext a
  apply Fin.ext
  match a with
  | ⟨0, _⟩ => show win0_1.index t 0 * 32 + 1 * y.val = b.val; rw [h0, hb]; omega
  | ⟨1, _⟩ => show win0_1.index t 1 * 1024 + 1 * z.val = z.val; rw [h1]; omega

/-- Window 2 (first weight array, flattened): rows `512·(t/8) + y`. -/
theorem iblk2_apply (t : Fin cfg0.N) (y : Fin 512) (z : Fin 1024) (b : Fin 4096) (hb : b.val = 512 * (t.val / 8) + y.val) :
    (iblk m c 2 t : Vec Ideal S512x1024 .bf16) (ix2 y z) = (V m c main_v10 : FVec Ideal S4096x1024 .bf16) (ix2 b z) := by
  obtain ⟨-, -, ⟨h0, h1⟩, -⟩ := idx_facts t
  unfold iblk
  rw [View.read_apply]
  show V m c main_v10 _ = V m c main_v10 _
  congr 1
  funext a
  apply Fin.ext
  match a with
  | ⟨0, _⟩ => show win0_2.index t 0 * 512 + 1 * y.val = b.val; rw [h0, hb]; omega
  | ⟨1, _⟩ => show win0_2.index t 1 * 1024 + 1 * z.val = z.val; rw [h1]; omega

/-- Window 3 (second weight array, flattened): rows `512·(t/8) + y`. -/
theorem iblk3_apply (t : Fin cfg0.N) (y : Fin 512) (z : Fin 1024) (b : Fin 4096) (hb : b.val = 512 * (t.val / 8) + y.val) :
    (iblk m c 3 t : Vec Ideal S512x1024 .bf16) (ix2 y z) = (V m c main_v13 : FVec Ideal S4096x1024 .bf16) (ix2 b z) := by
  obtain ⟨-, -, -, ⟨h0, h1⟩, -⟩ := idx_facts t
  unfold iblk
  rw [View.read_apply]
  show V m c main_v13 _ = V m c main_v13 _
  congr 1
  funext a
  apply Fin.ext
  match a with
  | ⟨0, _⟩ => show win0_3.index t 0 * 512 + 1 * y.val = b.val; rw [h0, hb]; omega
  | ⟨1, _⟩ => show win0_3.index t 1 * 1024 + 1 * z.val = z.val; rw [h1]; omega

/-- Window 4 (first layer): all rows, columns `512·(t%8) + z`. -/
theorem iblk4_apply (t : Fin cfg0.N) (y : Fin 4608) (z : Fin 512) (d : Fin 4096) (hd : d.val = 512 * (t.val % 8) + z.val) :
    (iblk m c 4 t : Vec Ideal S4608x512 .bf16) (ix2 y z) = (V m c main_v14 : FVec Ideal S4608x4096 .bf16) (ix2 y d) := by
  obtain ⟨-, -, -, -, ⟨h0, h1⟩, -⟩ := idx_facts t
  unfold iblk
  rw [View.read_apply]
  show V m c main_v14 _ = V m c main_v14 _
  congr 1
  funext a
  apply Fin.ext
  match a with
  | ⟨0, _⟩ => show win0_4.index t 0 * 4608 + 1 * y.val = y.val; rw [h0]; omega
  | ⟨1, _⟩ => show win0_4.index t 1 * 512 + 1 * z.val = d.val; rw [h1, hd]; omega

/-- Window 5 (second layer): rows `512·(t%8) + y`, all columns. -/
theorem iblk5_apply (t : Fin cfg0.N) (y : Fin 512) (z : Fin 1024) (b : Fin 4096) (hb : b.val = 512 * (t.val % 8) + y.val) :
    (iblk m c 5 t : Vec Ideal S512x1024 .bf16) (ix2 y z) = (V m c main_v15 : FVec Ideal S4096x1024 .bf16) (ix2 b z) := by
  obtain ⟨-, -, -, -, -, ⟨h0, h1⟩, -⟩ := idx_facts t
  unfold iblk
  rw [View.read_apply]
  show V m c main_v15 _ = V m c main_v15 _
  congr 1
  funext a
  apply Fin.ext
  match a with
  | ⟨0, _⟩ => show win0_5.index t 0 * 512 + 1 * y.val = b.val; rw [h0, hb]; omega
  | ⟨1, _⟩ => show win0_5.index t 1 * 1024 + 1 * z.val = z.val; rw [h1]; omega

/-- Window 6 (first bias row): columns `512·(t%8) + z`. -/
theorem iblk6_apply (t : Fin cfg0.N) (y : Fin 1) (z : Fin 512) (d : Fin 4096) (hd : d.val = 512 * (t.val % 8) + z.val) :
    (iblk m c 6 t : Vec Ideal S1x512 .f32) (ix2 y z) = (V m c main_v16 : FVec Ideal S1x4096 .f32) (ix2 y d) := by
  obtain ⟨-, -, -, -, -, -, ⟨h0, h1⟩, -⟩ := idx_facts t
  unfold iblk
  rw [View.read_apply]
  show V m c main_v16 _ = V m c main_v16 _
  congr 1
  funext a
  apply Fin.ext
  match a with
  | ⟨0, _⟩ => show win0_6.index t 0 * 1 + 1 * y.val = y.val; rw [h0]; omega
  | ⟨1, _⟩ => show win0_6.index t 1 * 512 + 1 * z.val = d.val; rw [h1, hd]; omega

/-- Window 7 (shared product): all antennas, columns `512·(t%8) + z`. -/
theorem iblk7_apply (t : Fin cfg0.N) (y : Fin 16) (z : Fin 512) (d : Fin 4096) (hd : d.val = 512 * (t.val % 8) + z.val) :
    (iblk m c 7 t : Vec Ideal S16x512 .bf16) (ix2 y z) = (V m c main_v24 : FVec Ideal S16x4096 .bf16) (ix2 y d) := by
  obtain ⟨-, -, -, -, -, -, -, ⟨h0, h1⟩, -⟩ := idx_facts t
  unfold iblk
  rw [View.read_apply]
  show V m c main_v24 _ = V m c main_v24 _
  congr 1
  funext a
  apply Fin.ext
  match a with
  | ⟨0, _⟩ => show win0_7.index t 0 * 16 + 1 * y.val = y.val; rw [h0]; omega
  | ⟨1, _⟩ => show win0_7.index t 1 * 512 + 1 * z.val = d.val; rw [h1, hd]; omega

/-- Window 8 (scaled second bias row): the whole row. -/
theorem iblk8_apply (t : Fin cfg0.N) (y : Fin 1) (z : Fin 1024) :
    (iblk m c 8 t : Vec Ideal S1x1024 .f32) (ix2 y z) = (V m c main_v19 : FVec Ideal S1x1024 .f32) (ix2 y z) := by
  obtain ⟨-, -, -, -, -, -, -, -, ⟨h0, h1⟩, -⟩ := idx_facts t
  unfold iblk
  rw [View.read_apply]
  show V m c main_v19 _ = V m c main_v19 _
  congr 1
  funext a
  apply Fin.ext
  match a with
  | ⟨0, _⟩ => show win0_8.index t 0 * 1 + 1 * y.val = y.val; rw [h0]; omega
  | ⟨1, _⟩ => show win0_8.index t 1 * 1024 + 1 * z.val = z.val; rw [h1]; omega

end Cert.KBlocks

end
-- ==== Proof.KAccum.lean ====
/-
  The accumulator over a row of grid points.

  The eight points `8·s … 8·s + 7` share sample block `s` and walk the eight hidden tiles. The accumulator is filled
  with zero at the first of them and each point adds its tile, so after point `n` it holds, at sample `b` of the
  block and column `l`, the sum of tiles `0 … n % 8`; at the last point the output's buffer is left at the sum of all
  eight tiles plus sixteen times the second bias.
-/
import proofs.«166167_j56367150792892_2_alg».proof.Proof.Gen.KernelIdeal.Frame
import proofs.«166167_j56367150792892_2_alg».proof.Proof.KTile
import proofs.«166167_j56367150792892_2_alg».proof.Proof.KPrefix
import proofs.«166167_j56367150792892_2_alg».proof.Proof.KBlocks

noncomputable section

namespace Cert.KAccum

open Cert.KernelIdeal Cert.KernelIdeal.Gen Idealize.ShloMosaic Idealize.ShloMosaic.TcCoe Idealize.SL.Sem
open Idealize.ShloMosaic.ValueIdx
open Cert.KPrefix (args)
open Cert.KBlocks

/-- The scale and the factor sixteen as the kernel's program spells them. -/
abbrev magK : EReal := Ideal.ofBits .f32 0x3D000000#32
abbrev c16K : EReal := Ideal.ofBits .f32 0x41800000#32

variable (m : (ℓ : Loc nD τ sig) → Buf (Elt Ideal) ℓ) (c : Dev nD)

/-- What the grid leaves in its result array at sample `b`, column `l`. -/
def eta (b : Fin 256) (l : Fin 1024) : EReal :=
  (∑ k ∈ Finset.range 8, Cert.Spec.tileK magK (args m c) b k l) + (args m c).b2 (ix1 l) * c16K

theorem col_val (n : Nat) (j : Fin 512) : (Cert.Spec.col (n % 8) j).val = 512 * (n % 8) + j.val := by
  show (512 * (n % 8) + j.val) % 4096 = _
  have := j.isLt
  omega

/-- One step at the blocks of point `t`: tile `t % 8` is added at sample `32·(t/8) + y`. -/
theorem step_at (t : Fin cfg0.N) (acc : Vec Ideal S32x1024 .f32) (y : Fin 32) (l : Fin 1024) (b : Fin 256)
    (hb : b.val = 32 * (t.val / 8) + y.val) :
    Cert.KPieces.step (iblk m c 0 t) (iblk m c 1 t) (iblk m c 2 t) (iblk m c 3 t) (iblk m c 4 t) (iblk m c 5 t) (iblk m c 6 t) (iblk m c 7 t) acc (ix2 y l)
      = acc (ix2 y l) + Cert.Spec.tileK magK (args m c) b (t.val % 8) l := by
  refine Cert.KTile.step_apply_of (iblk m c 0 t) (iblk m c 1 t) (iblk m c 2 t) (iblk m c 3 t) (iblk m c 4 t) (iblk m c 5 t) (iblk m c 6 t) (iblk m c 7 t) acc (args m c) (t.val % 8) y b l ?_ ?_ ?_ ?_ ?_ ?_ ?_ ?_
  · intro l'
    rw [iblk0_apply m c t y l' b hb, Cert.KPrefix.v3_apply]; rfl
  · intro l'
    rw [iblk1_apply m c t y l' b hb, Cert.KPrefix.v7_apply]; rfl
  · intro q r hr k
    have hy := y.isLt; have hq := q.isLt; have ht : t.val / 8 < 8 := by have := t.isLt; have : cfg0.N = 64 := N_0; omega
    rw [iblk2_apply m c t r k ⟨512 * (t.val / 8) + r.val, by have := r.isLt; show _ < 4096; omega⟩ rfl,
      Cert.KPrefix.v10_apply m c b q k _ (by show 512 * (t.val / 8) + r.val = b.val * 16 + q.val; omega)]
  · intro q r hr k
    have hy := y.isLt; have hq := q.isLt; have ht : t.val / 8 < 8 := by have := t.isLt; have : cfg0.N = 64 := N_0; omega
    rw [iblk3_apply m c t r k ⟨512 * (t.val / 8) + r.val, by have := r.isLt; show _ < 4096; omega⟩ rfl,
      Cert.KPrefix.v13_apply m c b q k _ (by show 512 * (t.val / 8) + r.val = b.val * 16 + q.val; omega)]
  · intro d j
    rw [iblk4_apply m c t d j (Cert.Spec.col (t.val % 8) j) (col_val t.val j), Cert.KPrefix.v14_apply]
  · intro j l'
    rw [iblk5_apply m c t j l' (Cert.Spec.col (t.val % 8) j) (col_val t.val j), Cert.KPrefix.v15_apply]
  · intro j
    rw [iblk6_apply m c t (0 : Fin 1) j (Cert.Spec.col (t.val % 8) j) (col_val t.val j), Cert.KPrefix.v16_apply]
  · intro q j
    rw [iblk7_apply m c t q j (Cert.Spec.col (t.val % 8) j) (col_val t.val j), Cert.KPrefix.v24_apply]; rfl

/-- The first point of a row of points: the zero fill, then tile 0. -/
theorem acc_first (n : ℕ) (hn : n < cfg0.N) (h0 : n % 8 = 0) (y : Fin 32) (l : Fin 1024) (b : Fin 256)
    (hb : b.val = 32 * (n / 8) + y.val) :
    ((outsAt0 m c n hn).2 : Vec Ideal S32x1024 .f32) (ix2 y l)
      = ∑ k ∈ Finset.range (n % 8 + 1), Cert.Spec.tileK magK (args m c) b k l := by
  have h1 : ¬n % 8 = 7 := by omega
  have e := outsAt0_A m c ⟨n, hn⟩ h0 h1
  rw [e]
  dsimp only
  rw [Cert.KPieces.sout_A c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) scM0_0 (Memref.isWhole_whole _) _ _ (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩)]
  rw [step_at m c ⟨n, hn⟩ _ y l b hb, Cert.KPay.pay3_apply, Ideal.ofBits_zero_f32, zero_add]
  show Cert.Spec.tileK magK (args m c) b (n % 8) l = _
  rw [h0, Finset.sum_range_one]

/-- A later point of the row: what the point before left, then this point's tile. -/
theorem acc_next (n' : ℕ) (hn : n' + 1 < cfg0.N) (h0 : ¬(n' + 1) % 8 = 0) (y : Fin 32) (l : Fin 1024) (b : Fin 256)
    (hb : b.val = 32 * ((n' + 1) / 8) + y.val) :
    ((outsAt0 m c (n' + 1) hn).2 : Vec Ideal S32x1024 .f32) (ix2 y l)
      = ((outsAt0 m c n' (Nat.lt_of_succ_lt hn)).2 : Vec Ideal S32x1024 .f32) (ix2 y l)
        + Cert.Spec.tileK magK (args m c) b ((n' + 1) % 8) l := by
  by_cases h1 : (n' + 1) % 8 = 7
  · have e := outsAt0_C m c ⟨n' + 1, hn⟩ h0 h1
    rw [e]
    dsimp only
    rw [Cert.KPieces.sout_C c (grid0.coords ⟨n' + 1, hn⟩) (ms0_0 ⟨n' + 1, hn⟩) (hs0_0 ⟨n' + 1, hn⟩) (ms0_1 ⟨n' + 1, hn⟩) (hs0_1 ⟨n' + 1, hn⟩) (ms0_2 ⟨n' + 1, hn⟩) (hs0_2 ⟨n' + 1, hn⟩) (ms0_3 ⟨n' + 1, hn⟩) (hs0_3 ⟨n' + 1, hn⟩) (ms0_4 ⟨n' + 1, hn⟩) (hs0_4 ⟨n' + 1, hn⟩) (ms0_5 ⟨n' + 1, hn⟩) (hs0_5 ⟨n' + 1, hn⟩) (ms0_6 ⟨n' + 1, hn⟩) (hs0_6 ⟨n' + 1, hn⟩) (ms0_7 ⟨n' + 1, hn⟩) (hs0_7 ⟨n' + 1, hn⟩) (ms0_8 ⟨n' + 1, hn⟩) (hs0_8 ⟨n' + 1, hn⟩) (ms0_9 ⟨n' + 1, hn⟩) (hs0_9 ⟨n' + 1, hn⟩) scM0_0 (Memref.isWhole_whole _) _ _ (iblk m c 0 ⟨n' + 1, hn⟩) (iblk m c 1 ⟨n' + 1, hn⟩) (iblk m c 2 ⟨n' + 1, hn⟩) (iblk m c 3 ⟨n' + 1, hn⟩) (iblk m c 4 ⟨n' + 1, hn⟩) (iblk m c 5 ⟨n' + 1, hn⟩) (iblk m c 6 ⟨n' + 1, hn⟩) (iblk m c 7 ⟨n' + 1, hn⟩) (iblk m c 8 ⟨n' + 1, hn⟩) _]
    rw [step_at m c ⟨n' + 1, hn⟩ _ y l b hb]
    rfl
  · have e := outsAt0_B m c ⟨n' + 1, hn⟩ h0 h1
    rw [e]
    dsimp only
    rw [Cert.KPieces.sout_B c (grid0.coords ⟨n' + 1, hn⟩) (ms0_0 ⟨n' + 1, hn⟩) (hs0_0 ⟨n' + 1, hn⟩) (ms0_1 ⟨n' + 1, hn⟩) (hs0_1 ⟨n' + 1, hn⟩) (ms0_2 ⟨n' + 1, hn⟩) (hs0_2 ⟨n' + 1, hn⟩) (ms0_3 ⟨n' + 1, hn⟩) (hs0_3 ⟨n' + 1, hn⟩) (ms0_4 ⟨n' + 1, hn⟩) (hs0_4 ⟨n' + 1, hn⟩) (ms0_5 ⟨n' + 1, hn⟩) (hs0_5 ⟨n' + 1, hn⟩) (ms0_6 ⟨n' + 1, hn⟩) (hs0_6 ⟨n' + 1, hn⟩) (ms0_7 ⟨n' + 1, hn⟩) (hs0_7 ⟨n' + 1, hn⟩) (ms0_8 ⟨n' + 1, hn⟩) (hs0_8 ⟨n' + 1, hn⟩) (ms0_9 ⟨n' + 1, hn⟩) (hs0_9 ⟨n' + 1, hn⟩) scM0_0 (Memref.isWhole_whole _) _ _ (iblk m c 0 ⟨n' + 1, hn⟩) (iblk m c 1 ⟨n' + 1, hn⟩) (iblk m c 2 ⟨n' + 1, hn⟩) (iblk m c 3 ⟨n' + 1, hn⟩) (iblk m c 4 ⟨n' + 1, hn⟩) (iblk m c 5 ⟨n' + 1, hn⟩) (iblk m c 6 ⟨n' + 1, hn⟩) (iblk m c 7 ⟨n' + 1, hn⟩) (iblk m c 8 ⟨n' + 1, hn⟩) _]
    rw [step_at m c ⟨n' + 1, hn⟩ _ y l b hb]
    rfl

/-- After point `n` the accumulator holds the tiles `0 … n % 8` of its row of points. -/
theorem acc_eq (n : ℕ) : ∀ (hn : n < cfg0.N) (y : Fin 32) (l : Fin 1024) (b : Fin 256) (hb : b.val = 32 * (n / 8) + y.val),
    ((outsAt0 m c n hn).2 : Vec Ideal S32x1024 .f32) (ix2 y l)
      = ∑ k ∈ Finset.range (n % 8 + 1), Cert.Spec.tileK magK (args m c) b k l := by
  induction n with
  | zero => intro hn y l b hb; exact acc_first m c 0 hn rfl y l b hb
  | succ n' ih =>
    intro hn y l b hb
    by_cases h0 : (n' + 1) % 8 = 0
    · exact acc_first m c (n' + 1) hn h0 y l b hb
    · have hdiv : (n' + 1) / 8 = n' / 8 := by omega
      have hmod : n' % 8 + 1 = (n' + 1) % 8 := by omega
      rw [acc_next m c n' hn h0 y l b hb, ih (Nat.lt_of_succ_lt hn) y l b (by rw [← hdiv]; exact hb), hmod,
        Finset.sum_range_succ]

/-- At the last point of a row of points the output's staging buffer holds `eta` of the point's 32 samples. -/
theorem out_last (t : Fin cfg0.N) (h7 : t.val % 8 = 7) (y : Fin 32) (l : Fin 1024) (b : Fin 256)
    (hb : b.val = 32 * (t.val / 8) + y.val) :
    ((outsAt0 m c t.val t.isLt).1 : Vec Ideal S32x1024 .f32) (ix2 y l) = eta m c b l := by
  have h0 : ¬t.val % 8 = 0 := by omega
  have hprev := acc_eq m c (t.val - 1) (Nat.lt_of_le_of_lt (Nat.sub_le _ _) t.isLt) y l b (by omega)
  rw [outsAt0_C m c t h0 h7]
  dsimp only
  rw [Cert.KPieces.out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) _ _ (iblk m c 0 t) (iblk m c 1 t) (iblk m c 2 t) (iblk m c 3 t) (iblk m c 4 t) (iblk m c 5 t) (iblk m c 6 t) (iblk m c 7 t) (iblk m c 8 t) _]
  rw [Cert.KPay.pay2_apply, step_at m c t _ y l b hb]
  rw [iblk8_apply m c t (0 : Fin 1) l, Cert.KPrefix.v19_apply]
  rw [hprev, show (t.val - 1) % 8 + 1 = 7 from by omega, h7]
  unfold eta
  rw [Finset.sum_range_succ (fun k => Cert.Spec.tileK magK (args m c) b k l) 7]

end Cert.KAccum

end
-- ==== Proof.KFinal.lean ====
/-
  The program's result, read off the run of the grid.

  The grid has 8 × 8 points; the points of one row of points share a block of 32 samples, and only the last point of a
  row (`t % 8 = 7`) writes the output's staging buffer back, into rows `32·(t/8) … 32·(t/8) + 31` of the result array.
  What that buffer then holds is `eta` of the block's samples, so the eight write-backs tile the 256 rows and the
  result array ends holding `eta` everywhere. The one operation after the grid subtracts it from the phases:
  the program returns `phi − eta`, which is the split arrangement `outK` of the specification.
-/
import proofs.«166167_j56367150792892_2_alg».proof.Proof.Gen.KernelIdeal.Frame
import proofs.«166167_j56367150792892_2_alg».proof.Proof.KPrefix
import proofs.«166167_j56367150792892_2_alg».proof.Proof.KAccum
import Idealize.ShloMosaic.Lib.Pipeline.Value
import Idealize.ShloMosaic.Lib.StableHlo.Run
import Idealize.ShloMosaic.Lib.ValueIdx
import Idealize.ShloMosaic.Lib.Tactic

noncomputable section

namespace Cert.KFinal

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The index of output window 9's block at every point: block row `t / 8`, block column 0. -/
theorem idx9 : ∀ t : Fin cfg0.N, win0_9.index t (0 : Fin 2) = t.val / 8 ∧ win0_9.index t (1 : Fin 2) = 0 :=
  (by decide +kernel : ∀ t : Fin grid0.N, _)

/-- The result array of the grid: entry `(b, l)` is `eta` of sample `b`, column `l`. -/
abbrev G (c : Dev nD) : Buf (Elt Ideal) ((c : Thread nD τ).loc main_v25) := fun i => Cert.KAccum.eta m c (i 0) (i 1)

/-- What a point that writes back (the last of its row of points) writes is its block of `G`: entry `(y, l)` of the
    block sits at row `32·(t/8) + y`, column `l` of the array. -/
theorem flushed_eq (c : Dev nD) (t : Fin cfg0.N) (hf : (cfg0.win 9).flush t = true) :
    (dats m 0 c).flushed 9 t = ((cfg0.win 9).blk t).view.read (Elt Ideal) (G m c) := by
  have h7 : t.val % 8 = 7 := (flush0_9 t).mp hf
  have hN : cfg0.N = 64 := N_0
  have ht := t.isLt
  obtain ⟨h0, h1⟩ := idx9 t
  show (cfg0.win 9).cut (grid0.coords t) ((dats m 0 c).after 9 t) = _
  rw [after0_9]
  refine funext fun (j : S32x1024.Idx) => ?_
  obtain ⟨y, l, rfl⟩ : ∃ (y : Fin 32) (l : Fin 1024), j = ix2 y l := ⟨j 0, j 1, eq_ix2 j⟩
  have hy := y.isLt
  show ((outsAt0 m c t.val t.isLt).1 : Vec Ideal S32x1024 .f32) (ix2 y l) = _
  refine (Cert.KAccum.out_last m c t h7 y l ⟨32 * (t.val / 8) + y.val, by omega⟩ rfl).trans ?_
  rw [View.read_apply]
  show Cert.KAccum.eta m c _ _ = Cert.KAccum.eta m c _ _
  congr 1 <;> apply Fin.ext
  · show 32 * (t.val / 8) + y.val = win0_9.index t 0 * 32 + 1 * y.val
    rw [h0]; omega
  · show l.val = win0_9.index t 1 * 1024 + 1 * l.val
    rw [h1]; omega

/-- An index of the array is in point `t`'s block iff each coordinate is in the block's range on its axis. -/
theorem mem_blk (t : Fin cfg0.N) (i : S256x1024.Idx) :
    i ∈ ((cfg0.win 9).blk t).view.set ↔ ∀ a : Fin 2, win0_9.index t a * S32x1024.size a ≤ (i a).val ∧ (i a).val < win0_9.index t a * S32x1024.size a + S32x1024.size a := by
  show i ∈ ((View.whole main_v25).slice (win0_9.rect t)).set ↔ _
  rw [View.set_slice_whole, Rect.mem_set_unit]
  exact Iff.rfl

/-- Every entry of the array is written back: row `r` by the last point of the row of points `r / 32`. -/
theorem cover (i : S256x1024.Idx) :
    ∃ t : Fin cfg0.N, (cfg0.win 9).flush t = true ∧ i ∈ ((cfg0.win 9).blk t).view.set := by
  have hN : cfg0.N = 64 := N_0
  have hi0 : (i 0).val < 256 := (i 0).isLt
  have hi1 : (i 1).val < 1024 := (i 1).isLt
  obtain ⟨t, ht⟩ : ∃ t : Fin cfg0.N, t.val = 8 * ((i 0).val / 32) + 7 := ⟨⟨8 * ((i 0).val / 32) + 7, by omega⟩, rfl⟩
  obtain ⟨h0, h1⟩ := idx9 t
  refine ⟨t, (flush0_9 t).mpr (by omega), ?_⟩
  rw [mem_blk]
  intro a
  match a with
  | ⟨0, _⟩ => show win0_9.index t (0 : Fin 2) * 32 ≤ (i 0).val ∧ (i 0).val < win0_9.index t (0 : Fin 2) * 32 + 32
              rw [h0]; omega
  | ⟨1, _⟩ => show win0_9.index t (1 : Fin 2) * 1024 ≤ (i 1).val ∧ (i 1).val < win0_9.index t (1 : Fin 2) * 1024 + 1024
              rw [h1]; omega

/-- So the result array of the grid ends holding `G`. -/
theorem final (c : Dev nD) : (dats m 0 c).arrAt 9 cfg0.N = G m c :=
  (dats m 0 c).arrAt_eq_of_cover 9 (G m c) (flushed_eq m c) cover

/-- The one host operation after the grid subtracts the grid's result from the phases: the program's result is
    `phi − eta`, the split arrangement of the specification. -/
theorem v26_eq (c : Dev nD) :
    Pipeline.afterTail₀ cfgs (dats m) 0 (V0 m) [hostOps1] c main_v26
      = (fun i => Cert.Spec.outK Cert.KAccum.magK Cert.KAccum.c16K (Cert.KPrefix.args m c) (i 0) (i 1)) := by
  unfold Pipeline.afterTail₀
  show StableHlo.after hostOps1 _ (Proc.devRef .tc main_v26) = _
  after_results
  have e0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans
      (V_main_arg0 m c)
  have e25 : Pipeline.withArrays (cfgs 0).spec c (V0 m c) (fun w => (dats m 0 c).arrAt w (cfgs 0).N) (Proc.devRef .tc main_v25)
      = G m c :=
    (Pipeline.withArrays_arr spec0 launch0.win.arr_inj c _ _ 9).trans (final m c)
  refine (congrArg₂ subf e0 e25).trans ?_
  funext i
  obtain ⟨b, l, rfl⟩ : ∃ (b : Fin 256) (l : Fin 1024), i = ix2 b l := ⟨i 0, i 1, eq_ix2 i⟩
  rfl

/-- The run, read: the result array at the split arrangement of the specification, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v26) = (fun i => Cert.Spec.outK Cert.KAccum.magK Cert.KAccum.c16K (Cert.KPrefix.args m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v26 (Pipeline.mem_restRefs_of main_v26 (by decide) (by decide))).trans (v26_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KFinal

end
-- ==== Proof.lean ====
/-
  A two-layer estimator applied to 256 samples × 16 antennas: the kernel and its plain reference compute the same
  function of finite inputs, entry by entry over the extended reals.

  The reference builds, for every (sample, antenna), a feature row of length 4608 — the scaled cosine and sine of the
  sample's phases, the antenna's two weight rows, the antenna's shared row —, multiplies it by the first layer, adds
  the bias, clips at zero, multiplies by the second layer, adds the second bias, sums the sixteen antennas and
  subtracts the sum from the phases. The kernel never builds the row: it splits the first product by segment of the
  row, sums the clipped hidden rows over the antennas BEFORE the second product, takes that product in eight column
  tiles accumulated over a grid axis, and adds the second bias once, sixteen-fold. The scale is 1/32 on both sides
  (the reference divides 1 by the square root of 1024).

  The two arrangements are the specification's `outK` and `outR`: the kernel's result array is `outK` of the arguments
  (the grid's accumulation read off the generated frame run, then the subtraction after the grid), the reference's is
  `outR` (its generated run, read operation by operation), and `outK = outR` is the law: the sum over the row splits
  into its segments, sums commute, and the product with the second layer distributes over the sum of the antennas'
  clipped — hence non-negative — hidden entries, so the law holds of any extended reals; that the precondition makes
  every entry a real number is passed to it and not needed by it.
-/
import proofs.«166167_j56367150792892_2_alg».proof.Defs
import proofs.«166167_j56367150792892_2_alg».proof.Proof.Gen.Kernel
import proofs.«166167_j56367150792892_2_alg».proof.Proof.Gen.Kernel.Skeleton
import proofs.«166167_j56367150792892_2_alg».proof.Proof.Gen.Kernel.Launch
import proofs.«166167_j56367150792892_2_alg».proof.Proof.Gen.Kernel.Points
import proofs.«166167_j56367150792892_2_alg».proof.Proof.Gen.Kernel.Frame
import proofs.«166167_j56367150792892_2_alg».proof.Proof.Gen.KernelIdeal
import proofs.«166167_j56367150792892_2_alg».proof.Proof.Gen.KernelIdeal.Skeleton
import proofs.«166167_j56367150792892_2_alg».proof.Proof.Gen.KernelIdeal.Launch
import proofs.«166167_j56367150792892_2_alg».proof.Proof.Gen.KernelIdeal.Points
import proofs.«166167_j56367150792892_2_alg».proof.Proof.Gen.KernelIdeal.Frame
import proofs.«166167_j56367150792892_2_alg».proof.Proof.Gen.ReferenceIdeal
import proofs.«166167_j56367150792892_2_alg».proof.Proof.Gen.ReferenceIdeal.Run
import proofs.«166167_j56367150792892_2_alg».proof.Proof.Gen.ReferenceIdeal.Read
import proofs.«166167_j56367150792892_2_alg».proof.Proof.Gen.Pre_finite_inputs
import proofs.«166167_j56367150792892_2_alg».proof.Proof.Spec
import proofs.«166167_j56367150792892_2_alg».proof.Proof.Law
import proofs.«166167_j56367150792892_2_alg».proof.Proof.Consts
import proofs.«166167_j56367150792892_2_alg».proof.Proof.Finite
import proofs.«166167_j56367150792892_2_alg».proof.Proof.RefValue
import proofs.«166167_j56367150792892_2_alg».proof.Proof.KFinal
import Idealize.ShloMosaic.Adequacy
import Idealize.ShloMosaic.Init

noncomputable section

namespace Cert.Proof

open Idealize.ShloMosaic Idealize.ShloMosaic.TcCoe Idealize.SL.Sem

/-- The three programs run to the end without a fault and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten for the reading over the extended reals. -/
theorem preserves : Cert.preserves_Kernel_KernelIdeal := trivial

/-- From memories that agree on finite arguments, both programs end with the same result array: the kernel's is the
    split arrangement of the arguments, the reference's the plain one, and the two are equal. -/
theorem algebraic : Cert.algebraic_KernelIdeal_ReferenceIdeal := by
  intro m ρ m' ρ' hpre hagree
  refine ⟨fun c => fun i => Cert.Spec.outK Cert.KAccum.magK Cert.KAccum.c16K (Cert.KPrefix.args m c) (i 0) (i 1),
    Cert.KFinal.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [e0, e1, e2, e3, e4, e5, e6, e7]
  refine (Cert.ReferenceIdeal.Read.val_main_v28_eq _ _ _ _ _ _ _ _).trans ?_
  funext i
  rw [Cert.RefValue.ref_eq]
  have hreal := Cert.Finite.real_of_pre _ _ _ _ _ _ _ _ (hpre c)
  show _ = Cert.Spec.outK (Ideal.ofBits .f32 0x3D000000#32) (Ideal.ofBits .f32 0x41800000#32) (Cert.KPrefix.args m c) (i 0) (i 1)
  rw [Cert.Consts.ofBits_inv32, Cert.Consts.ofBits_16]
  exact (Cert.Spec.outK_eq_outR _ hreal (i 0) (i 1)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
